-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S1200000 .f32) (main_arg2 : FVec F S128x64 .f32) (main_arg3 : FVec F S64 .f32) (main_arg4 : FVec F S64x64 .f32) (main_arg5 : FVec F S64 .f32) (main_arg6 : IVec S1200000 32) (main_arg7 : IVec S1200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1200000 .f32 := Host.absf main_arg1
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x128 : Shape := ⟨2, ![50000, 128]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S_ : Shape := ⟨0, ![]⟩
abbrev S50000 : Shape := ⟨1, ![50000]⟩
abbrev S1200000x1 : Shape := ⟨2, ![1200000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1200000x64 : Shape := ⟨2, ![1200000, 64]⟩
abbrev S8000x64 : Shape := ⟨2, ![8000, 64]⟩
abbrev S8000x1 : Shape := ⟨2, ![8000, 1]⟩
abbrev S50000x1 : Shape := ⟨2, ![50000, 1]⟩
abbrev S5000x1 : Shape := ⟨2, ![5000, 1]⟩

abbrev nBuf : Space → Nat
  | .hbm => 52
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S1200000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1200000, .i32⟩
  | .hbm, ⟨7, _⟩ => ⟨S1200000, .i32⟩
  | .hbm, ⟨8, _⟩ => ⟨S_, .f32⟩
  | .hbm, ⟨9, _⟩ => ⟨S1200000, .f32⟩
  | .hbm, ⟨10, _⟩ => ⟨S_, .f32⟩
  | .hbm, ⟨11, _⟩ => ⟨S50000, .f32⟩
  | .hbm, ⟨12, _⟩ => ⟨S1200000x1, .i32⟩
  | .hbm, ⟨13, _⟩ => ⟨S50000, .f32⟩
  | .hbm, ⟨14, _⟩ => ⟨S1x64, .f32⟩
  | .hbm, ⟨15, _⟩ => ⟨S50000x64, .f32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x64, .f32⟩
  | .hbm, ⟨25, _⟩ => ⟨S1200000x1, .f32⟩
  | .hbm, ⟨26, _⟩ => ⟨S1200000x64, .f32⟩
  | .hbm, ⟨27, _⟩ => ⟨S_, .f32⟩
  | .hbm, ⟨28, _⟩ => ⟨S50000x64, .f32⟩
  | .hbm, ⟨29, _⟩ => ⟨S1200000x1, .i32⟩
  | .hbm, ⟨30, _⟩ => ⟨S50000x64, .f32⟩
  | .hbm, ⟨31, _⟩ => ⟨S50000x1, .f32⟩
  | .hbm, ⟨32, _⟩ => ⟨S50000x64, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S1200000x1, .f32⟩
  | .hbm, ⟨45, _⟩ => ⟨S1200000x64, .f32⟩
  | .hbm, ⟨46, _⟩ => ⟨S_, .f32⟩
  | .hbm, ⟨47, _⟩ => ⟨S50000x64, .f32⟩
  | .hbm, ⟨48, _⟩ => ⟨S1200000x1, .i32⟩
  | .hbm, ⟨49, _⟩ => ⟨S50000x64, .f32⟩
  | .hbm, ⟨50, _⟩ => ⟨S50000x1, .f32⟩
  | .hbm, ⟨51, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S8000x1, .f32⟩
  | .local _ .vmem, ⟨9, _⟩ => ⟨S8000x1, .f32⟩
  | .local _ .vmem, ⟨10, _⟩ => ⟨S8000x64, .f32⟩
  | .local _ .vmem, ⟨11, _⟩ => ⟨S8000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S8000x64, .f32⟩
  | .local _ .vmem, ⟨25, _⟩ => ⟨S8000x64, .f32⟩
  | .local _ .vmem, ⟨26, _⟩ => ⟨S8000x1, .f32⟩
  | .local _ .vmem, ⟨27, _⟩ => ⟨S8000x1, .f32⟩
  | .local _ .vmem, ⟨28, _⟩ => ⟨S8000x64, .f32⟩
  | .local _ .vmem, ⟨29, _⟩ => ⟨S8000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![150], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S1200000 : S_.BroadcastsInDim S1200000 (![] : Fin 0 → Fin S1200000.rank)
  bcast_S_S50000 : S_.BroadcastsInDim S50000 (![] : Fin 0 → Fin S50000.rank)
  bcast_S1200000_S1200000x1_0 : S1200000.BroadcastsInDim S1200000x1 (![0] : Fin 1 → Fin S1200000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S1200000_S1200000x1 : S1200000.ShapeCasts S1200000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S50000x64 : S_.BroadcastsInDim S50000x64 (![] : Fin 0 → Fin S50000x64.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  scatter_S50000_S1200000x1_S1200000_n_0_0_1_wf : ScatterDims.WF S50000 S1200000x1 S1200000 [] [0] [0] 1
  dot_S5000x128_S128x64_S5000x64_1_0_0_1_n_n_wf : DotDims.WF S5000x128 S128x64 S5000x64 [1] [0] [0] [1] [] []
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1200000x64.size a
  hwx1_0 : ∀ i : grid1.Coords, EltTy.bits .f32 = 32 ∨ (Rect.block (s := S1200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1200000x1.size a
  hwx1_1 : ∀ i : grid1.Coords, EltTy.bits .f32 = 32 ∨ (Rect.block (s := S1200000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1200000x64.size a
  hwx1_2 : ∀ i : grid1.Coords, EltTy.bits .f32 = 32 ∨ (Rect.block (s := S1200000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1200000x64.size a
  hwx4_0 : ∀ i : grid4.Coords, EltTy.bits .f32 = 32 ∨ (Rect.block (s := S1200000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1200000x1.size a
  hwx4_1 : ∀ i : grid4.Coords, EltTy.bits .f32 = 32 ∨ (Rect.block (s := S1200000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S1200000x64.size a
  hwx4_2 : ∀ i : grid4.Coords, EltTy.bits .f32 = 32 ∨ (Rect.block (s := S1200000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v28) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v33) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S50000 : Shape := ⟨1, ![50000]⟩
abbrev S50000x1 : Shape := ⟨2, ![50000, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1200000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1200000, .i32⟩
  | .hbm, ⟨7, _⟩ => ⟨S1200000, .i32⟩
  | .hbm, ⟨8, _⟩ => ⟨S50000x64, .f32⟩
  | .hbm, ⟨9, _⟩ => ⟨S1x64, .f32⟩
  | .hbm, ⟨10, _⟩ => ⟨S50000x64, .f32⟩
  | .hbm, ⟨11, _⟩ => ⟨S50000x64, .f32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S1200000x1, .f32⟩
  | .hbm, ⟨22, _⟩ => ⟨S1200000x64, .f32⟩
  | .hbm, ⟨23, _⟩ => ⟨S1200000x64, .f32⟩
  | .hbm, ⟨24, _⟩ => ⟨S_, .f32⟩
  | .hbm, ⟨25, _⟩ => ⟨S50000x64, .f32⟩
  | .hbm, ⟨26, _⟩ => ⟨S1200000x1, .i32⟩
  | .hbm, ⟨27, _⟩ => ⟨S50000x64, .f32⟩
  | .hbm, ⟨28, _⟩ => ⟨S_, .f32⟩
  | .hbm, ⟨29, _⟩ => ⟨S1200000, .f32⟩
  | .hbm, ⟨30, _⟩ => ⟨S_, .f32⟩
  | .hbm, ⟨31, _⟩ => ⟨S50000, .f32⟩
  | .hbm, ⟨32, _⟩ => ⟨S1200000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S_, .f32⟩
  | .hbm, ⟨42, _⟩ => ⟨S50000x64, .f32⟩
  | .hbm, ⟨43, _⟩ => ⟨S50000x64, .i1⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x64, .f32⟩
  | .hbm, ⟨61, _⟩ => ⟨S1200000x1, .f32⟩
  | .hbm, ⟨62, _⟩ => ⟨S1200000x64, .f32⟩
  | .hbm, ⟨63, _⟩ => ⟨S1200000x64, .f32⟩
  | .hbm, ⟨64, _⟩ => ⟨S_, .f32⟩
  | .hbm, ⟨65, _⟩ => ⟨S50000x64, .f32⟩
  | .hbm, ⟨66, _⟩ => ⟨S1200000x1, .i32⟩
  | .hbm, ⟨67, _⟩ => ⟨S50000x64, .f32⟩
  | .hbm, ⟨68, _⟩ => ⟨S_, .f32⟩
  | .hbm, ⟨69, _⟩ => ⟨S1200000, .f32⟩
  | .hbm, ⟨70, _⟩ => ⟨S_, .f32⟩
  | .hbm, ⟨71, _⟩ => ⟨S50000, .f32⟩
  | .hbm, ⟨72, _⟩ => ⟨S1200000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  scatter_S50000_S1200000x1_S1200000_n_0_0_1_wf : ScatterDims.WF S50000 S1200000x1 S1200000 [] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The mathematics of this certificate, as named whole-array functions at the ideal values.

  One graph layer takes node features `h : [N, K]`, a weight `W : [K, 64]`, a bias `b : [64]`, the edge weights
  `ew : [E]` and the edges' endpoints `src, dst : [E]` (N = 50000 nodes, E = 1200000 edges) and computes
      Wh    = h · W + b                                  (`lin`: a matrix product, the bias added to every row)
      g     = Wh[src]                                    (`gath`: row `src e` for every edge, a negative index wrapped by N)
      msg   = g · ew                                     (`msg`: row `e` scaled by `ew e`)
      s     = Σ over the edges into each node of msg     (`scat`: a scatter-add of the rows by `dst` into zeros)
      deg   = the number of edges into each node         (`deg`: a scatter-add of ones by `dst` into zeros)
      out   = s / max(deg, 1)                            (`norm`: the mean over the incoming edges, row by row)
  and the network is two layers with a leaky rectifier (slope 0.01, `lrelu`) between them. The functions below are
  the reference program's own operations, composed; both programs are shown to end at `result`.
-/
import proofs.«112303_j23192823399233_2_alg».proof.ReferenceIdeal
import Idealize.ShloMosaic.PureOps.Ideal

noncomputable section

namespace Cert.Spec

open Idealize.ShloMosaic Cert.ReferenceIdeal

variable [Cert.ReferenceIdeal.Facts]
open Cert.ReferenceIdeal.Facts₀ Cert.ReferenceIdeal.Facts

/-- A [64] bias laid as the one row of a [1, 64] table. -/
def biasRow (b : FVec Ideal S64 .f32) : FVec Ideal S1x64 .f32 := broadcastInDim S1x64 ![1] bcast_S64_S1x64_1 b

/-- The first layer's projection over a bias ROW: `x · W` plus the row added to every row. -/
def lin1Row (x : FVec Ideal S50000x128 .f32) (W : FVec Ideal S128x64 .f32) (b2 : FVec Ideal S1x64 .f32) : FVec Ideal S50000x64 .f32 :=
  addf (Host.dotGeneral dot_S50000x128_S128x64_S50000x64_1_0_0_1_n_n none x W) (broadcastInDim S50000x64 ![0, 1] bcast_S1x64_S50000x64_0_1 b2)

/-- The first layer's projection `x · W + b`. -/
def lin1 (x : FVec Ideal S50000x128 .f32) (W : FVec Ideal S128x64 .f32) (b : FVec Ideal S64 .f32) : FVec Ideal S50000x64 .f32 :=
  lin1Row x W (biasRow b)

/-- The second layer's projection over a bias ROW. -/
def lin2Row (h : FVec Ideal S50000x64 .f32) (W : FVec Ideal S64x64 .f32) (b2 : FVec Ideal S1x64 .f32) : FVec Ideal S50000x64 .f32 :=
  addf (Host.dotGeneral dot_S50000x64_S64x64_S50000x64_1_0_0_1_n_n none h W) (broadcastInDim S50000x64 ![0, 1] bcast_S1x64_S50000x64_0_1 b2)

/-- The second layer's projection `h · W + b`. -/
def lin2 (h : FVec Ideal S50000x64 .f32) (W : FVec Ideal S64x64 .f32) (b : FVec Ideal S64 .f32) : FVec Ideal S50000x64 .f32 :=
  lin2Row h W (biasRow b)

/-- The edges' source nodes as a column of row indices, a negative one wrapped around by the number of nodes. -/
def wrap (src : IVec S1200000 32) : IVec S1200000x1 32 :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 50000#32))) src)

/-- Row `src e` of the node table for every edge `e`. -/
def gath (x : FVec Ideal S50000x64 .f32) (src : IVec S1200000 32) : FVec Ideal S1200000x64 .f32 :=
  Host.gather gather_S50000x64_S1200000x1_S1200000x64_1_0_n_n_0_1_164 x (wrap src)

/-- A vector over the edges as a column. -/
def edgeCol (ew : FVec Ideal S1200000 .f32) : FVec Ideal S1200000x1 .f32 := broadcastInDim S1200000x1 ![0] bcast_S1200000_S1200000x1_0 ew

/-- Every edge's row scaled by that edge's entry of a COLUMN of weights. -/
def msgCol (g : FVec Ideal S1200000x64 .f32) (w2 : FVec Ideal S1200000x1 .f32) : FVec Ideal S1200000x64 .f32 :=
  mulf g (broadcastInDim S1200000x64 ![0, 1] bcast_S1200000x1_S1200000x64_0_1 w2)

/-- Every edge's row scaled by the edge's weight. -/
def msg (g : FVec Ideal S1200000x64 .f32) (ew : FVec Ideal S1200000 .f32) : FVec Ideal S1200000x64 .f32 := msgCol g (edgeCol ew)

/-- The edges' rows added up per destination node, from zeros. -/
def scat (dst : IVec S1200000 32) (u : FVec Ideal S1200000x64 .f32) : FVec Ideal S50000x64 .f32 :=
  Host.scatterAdd scatter_S50000x64_S1200000x1_S1200000x64_1_0_0_1
    (broadcastInDim S50000x64 ![] bcast_S_S50000x64 (constant (F := Ideal) S_ .f32 0x00000000#32))
    (broadcastInDim S1200000x1 ![0] bcast_S1200000_S1200000x1_0 dst) u

/-- The number of edges into each node: ones added up per destination node, from zeros. -/
def deg (dst : IVec S1200000 32) : FVec Ideal S50000 .f32 :=
  Host.scatterAdd scatter_S50000_S1200000x1_S1200000_n_0_0_1
    (broadcastInDim S50000 ![] bcast_S_S50000 (constant (F := Ideal) S_ .f32 0x00000000#32))
    (broadcastInDim S1200000x1 ![0] bcast_S1200000_S1200000x1_0 dst)
    (broadcastInDim S1200000 ![] bcast_S_S1200000 (constant (F := Ideal) S_ .f32 0x3F800000#32))

/-- The divisor of the mean: `max(deg, 1)` per node. -/
def degMax (d : FVec Ideal S50000 .f32) : FVec Ideal S50000 .f32 :=
  maximumf d (broadcastInDim S50000 ![] bcast_S_S50000 (constant (F := Ideal) S_ .f32 0x3F800000#32))

/-- Every node's row divided by that node's entry of a COLUMN of divisors. -/
def divCol (s : FVec Ideal S50000x64 .f32) (q2 : FVec Ideal S50000x1 .f32) : FVec Ideal S50000x64 .f32 :=
  Host.divf s (broadcastInDim S50000x64 ![0, 1] bcast_S50000x1_S50000x64_0_1 q2)

/-- The mean over the incoming edges: every node's row divided by `max(deg, 1)`. -/
def norm (s : FVec Ideal S50000x64 .f32) (d : FVec Ideal S50000 .f32) : FVec Ideal S50000x64 .f32 :=
  divCol s (broadcastInDim S50000x1 ![0] bcast_S50000_S50000x1_0 (degMax d))

/-- The leaky rectifier with slope 0.01 (as the float word both programs carry): `v` where `v ≥ 0`, else `0.01 · v`. -/
def lrelu (v : FVec Ideal S50000x64 .f32) : FVec Ideal S50000x64 .f32 :=
  select (cmpf .oge v (broadcastInDim S50000x64 ![] bcast_S_S50000x64 (constant (F := Ideal) S_ .f32 0x00000000#32))) v
    (mulf (broadcastInDim S50000x64 ![] bcast_S_S50000x64 (id (constant (F := Ideal) S_ .f32 0x3C23D70A#32))) v)

/-- One layer after its projection `p`: gather by `src`, scale by `ew`, add up by `dst`, divide by `max(deg, 1)`. -/
def agg (p : FVec Ideal S50000x64 .f32) (ew : FVec Ideal S1200000 .f32) (src dst : IVec S1200000 32) : FVec Ideal S50000x64 .f32 :=
  norm (scat dst (msg (gath p src) ew)) (deg dst)

/-- The network: two layers, the leaky rectifier between them. -/
def result (x : FVec Ideal S50000x128 .f32) (ew : FVec Ideal S1200000 .f32) (W1 : FVec Ideal S128x64 .f32) (b1 : FVec Ideal S64 .f32)
    (W2 : FVec Ideal S64x64 .f32) (b2 : FVec Ideal S64 .f32) (src dst : IVec S1200000 32) : FVec Ideal S50000x64 .f32 :=
  agg (lin2 (lrelu (agg (lin1 x W1 b1) ew src dst)) W2 b2) ew src dst

/-! ## The same network as the kernel arranges it

The kernel hands its tiled stages the bias as a reshaped ROW, the edge weights as a reshaped COLUMN, and takes
`max(deg, 1)` on the reshaped COLUMN of degrees; `resultK_eq` (Proof/SpecBridge.lean) says this is `result`. -/

/-- `max(·, 1)` on a column of degrees. -/
def maxCol (d2 : FVec Ideal S50000x1 .f32) : FVec Ideal S50000x1 .f32 :=
  maximumf d2 (broadcast S50000x1 (Scalar.ofBits .f32 0x3F800000#32 : Ideal .f32))

/-- One layer after its projection, over a column of edge weights and a column of degrees. -/
def aggK (p : FVec Ideal S50000x64 .f32) (ew2 : FVec Ideal S1200000x1 .f32) (src dst : IVec S1200000 32)
    (d2 : FVec Ideal S50000x1 .f32) : FVec Ideal S50000x64 .f32 :=
  divCol (scat dst (msgCol (gath p src) ew2)) (maxCol d2)

/-- The network over reshaped operands: `b1r, b2r` the biases as rows, `ew2` the edge weights as a column, `d2` the
    degrees as a column. -/
def resultK (x : FVec Ideal S50000x128 .f32) (ew2 : FVec Ideal S1200000x1 .f32) (W1 : FVec Ideal S128x64 .f32) (b1r : FVec Ideal S1x64 .f32)
    (W2 : FVec Ideal S64x64 .f32) (b2r : FVec Ideal S1x64 .f32) (src dst : IVec S1200000 32) (d2 : FVec Ideal S50000x1 .f32) : FVec Ideal S50000x64 .f32 :=
  aggK (lin2Row (lrelu (aggK (lin1Row x W1 b1r) ew2 src dst d2)) W2 b2r) ew2 src dst d2

end Cert.Spec

end
-- ==== Proof.SpecBridge.lean ====
/-
  The kernel's arrangement of the network is the reference's.

  The kernel reshapes three operands on the host before its tiled stages: a bias [64] to a row [1, 64], the edge
  weights [E] to a column [E, 1], the degrees [N] to a column [N, 1] (taking `max(·, 1)` on the column). A reshape keeps
  the row-major order, so the row's entry (0, q) is the bias's entry q and a column's entry (e, 0) is the vector's
  entry e: exactly what the reference's `broadcast_in_dim` lays down. `max` is taken entry by entry, so it commutes
  with laying a vector as a column. Hence `resultK` over the reshaped operands is `result`.
-/
import proofs.«112303_j23192823399233_2_alg».proof.Proof.Spec
import Idealize.ShloMosaic.Lib.Pipeline.Value
import Idealize.ShloMosaic.Lib.ValueIdx

noncomputable section

namespace Cert.Spec

open Idealize.ShloMosaic Idealize.ShloMosaic.ValueIdx Cert.ReferenceIdeal

variable [Cert.ReferenceIdeal.Facts]
open Cert.ReferenceIdeal.Facts₀ Cert.ReferenceIdeal.Facts

/-- A bias reshaped to one row is the bias laid as a row: both read entry q at (0, q). -/
theorem row_eq (b : FVec Ideal S64 .f32) (h : S64.ShapeCasts S1x64) : shapeCast S1x64 b h = biasRow b := by
  funext j
  obtain ⟨u, q, rfl⟩ : ∃ (u : Fin 1) (q : Fin 64), j = ix2 u q := ⟨j 0, j 1, eq_ix2 j⟩
  unfold biasRow
  rw [shapeCast_apply b h (ix2 u q) (ix1 q) ?_, broadcastInDim_apply ![1] bcast_S64_S1x64_1 b (ix2 u q) (ix1 q) ?_]
  · intro a
    match a with
    | ⟨0, _⟩ => rfl
  · rw [Shape.rowMajor_val_one, Shape.rowMajor_val_two]
    show q.val = u.val * 64 + q.val
    have := u.isLt
    omega

/-- A vector over the edges reshaped to a column is the vector laid as a column: both read entry e at (e, 0). -/
theorem col_eq (ew : FVec Ideal S1200000 .f32) (h : S1200000.ShapeCasts S1200000x1) : shapeCast S1200000x1 ew h = edgeCol ew := by
  funext j
  obtain ⟨e, z, rfl⟩ : ∃ (e : Fin 1200000) (z : Fin 1), j = ix2 e z := ⟨j 0, j 1, eq_ix2 j⟩
  unfold edgeCol
  rw [shapeCast_apply ew h (ix2 e z) (ix1 e) ?_, broadcastInDim_apply ![0] bcast_S1200000_S1200000x1_0 ew (ix2 e z) (ix1 e) ?_]
  · intro a
    match a with
    | ⟨0, _⟩ => rfl
  · rw [Shape.rowMajor_val_one, Shape.rowMajor_val_two]
    show e.val = e.val * 1 + z.val
    have := z.isLt
    omega

/-- `max(·, 1)` on the reshaped column of degrees is the column of `max(deg, 1)`: the maximum is entry by entry. -/
theorem maxCol_eq (d : FVec Ideal S50000 .f32) (h : S50000.ShapeCasts S50000x1) :
    maxCol (shapeCast S50000x1 d h) = broadcastInDim S50000x1 ![0] bcast_S50000_S50000x1_0 (degMax d) := by
  funext j
  obtain ⟨n, z, rfl⟩ : ∃ (n : Fin 50000) (z : Fin 1), j = ix2 n z := ⟨j 0, j 1, eq_ix2 j⟩
  rw [broadcastInDim_apply ![0] bcast_S50000_S50000x1_0 (degMax d) (ix2 n z) (ix1 n) ?_]
  · unfold maxCol degMax
    rw [maximumf_apply, maximumf_apply, shapeCast_apply d h (ix2 n z) (ix1 n) ?_]
    · rfl
    · rw [Shape.rowMajor_val_one, Shape.rowMajor_val_two]
      show n.val = n.val * 1 + z.val
      have := z.isLt
      omega
  · intro a
    match a with
    | ⟨0, _⟩ => rfl

/-- The network as the kernel arranges it, over the reshaped biases, edge weights and degrees, is the network. -/
theorem resultK_eq (x : FVec Ideal S50000x128 .f32) (ew : FVec Ideal S1200000 .f32) (W1 : FVec Ideal S128x64 .f32) (b1 : FVec Ideal S64 .f32)
    (W2 : FVec Ideal S64x64 .f32) (b2 : FVec Ideal S64 .f32) (src dst : IVec S1200000 32)
    (h1 : S64.ShapeCasts S1x64) (h2 : S1200000.ShapeCasts S1200000x1) (h3 : S50000.ShapeCasts S50000x1) :
    resultK x (shapeCast S1200000x1 ew h2) W1 (shapeCast S1x64 b1 h1) W2 (shapeCast S1x64 b2 h1) src dst (shapeCast S50000x1 (deg dst) h3)
      = result x ew W1 b1 W2 b2 src dst := by
  unfold resultK result aggK agg norm msg lin1 lin2
  rw [row_eq, row_eq, col_eq, maxCol_eq]

end Cert.Spec

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RegionLin.lean ====
/-
  The two tiled linear layers (the first and the fourth of the kernel's six tiled regions).

  A linear layer is `h · W + b`: a [50000, K] table of node features times a [K, 64] weight, the bias row added
  to every row (K = 128 in the first layer, 64 in the second). The kernel walks the table in ten tiles of 5000 rows;
  at tile `t` it multiplies rows [5000 t, 5000 t + 5000) by the whole weight into a zero accumulator and adds the bias
  row laid over the tile. At the extended reals nothing is rounded, so entry (p, q) of the tile's product is
      Σ_k h (5000 t + p, k) · W (k, q),
  which is entry (5000 t + p, q) of the whole product, and the bias adds b (0, q) on both sides. The ten tiles cover the
  50000 rows (row r lies in tile r / 5000), so the array the region leaves is the whole-array layer.
-/
import proofs.«112303_j23192823399233_2_alg».proof.Proof.Gen.KernelIdeal.Frame
import proofs.«112303_j23192823399233_2_alg».proof.Proof.Gen.ReferenceIdeal
import proofs.«112303_j23192823399233_2_alg».proof.Proof.Spec
import proofs.«112303_j23192823399233_2_alg».proof.Proof.LibTileMatmul
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.RegionLin

open Cert.KernelIdeal Cert.KernelIdeal.Gen Idealize.ShloMosaic.ValueIdx

/-- The zero offsets of a whole-buffer access, as a constant function. -/
theorem zeroOffsets : (![0, 0] : Fin 2 → Nat) = fun _ => 0 := funext fun a => by fin_cases a <;> rfl

/-! ## The bias row laid over the rows -/

/-- The bias row broadcast over a 5000-row tile, at (p, q), and over the 50000-row array, at (r, q), are both the
    row's entry (0, q). -/
theorem biasRow_apply (x2 : Vec Ideal S1x64 .f32) (b2 : FVec Ideal Cert.ReferenceIdeal.S1x64 .f32)
    (h1 : S1x64.ShapeCasts S1x64) (h2 : S1x64.Broadcasts S5000x64)
    (h3 : Cert.ReferenceIdeal.S1x64.BroadcastsInDim Cert.ReferenceIdeal.S50000x64 (![0, 1] : Fin 2 → Fin Cert.ReferenceIdeal.S50000x64.rank))
    (p : Fin 5000) (q : Fin 64) (r : Fin 50000) (hb : x2 (ix2 (0 : Fin 1) q) = b2 (ix2 (0 : Fin 1) q)) :
    broadcastTo S5000x64 (shapeCast S1x64 x2 h1) h2 (ix2 p q)
      = broadcastInDim Cert.ReferenceIdeal.S50000x64 ![0, 1] h3 b2 (ix2 r q) := by
  rw [shapeCast_self]
  refine (broadcastTo_1b_ab_apply x2 h2 p q).trans (hb.trans ?_)
  refine (broadcastInDim_apply _ h3 b2 (ix2 r q) (ix2 (0 : Fin 1) q) fun a => ?_).symm
  match a with
  | ⟨0, _⟩ => rfl
  | ⟨1, _⟩ =>
    show q.val = if (64 : Nat) = 1 then 0 else q.val
    rw [if_neg (by decide)]

/-! ## The first layer (128 features in) -/

/-- A 5000-row tile's product into the zero accumulator is, row by row, the whole table's product. -/
theorem tileDot1 (T : FVec Ideal S5000x128 .bf16) (B : FVec Ideal S128x64 .bf16)
    (X : FVec Ideal Cert.ReferenceIdeal.S50000x128 .f32) (W : FVec Ideal Cert.ReferenceIdeal.S128x64 .f32)
    (p : Fin 5000) (q : Fin 64) (r : Fin 50000)
    (hT : ∀ k : Fin 128, (T (ix2 p k) : EReal) = X (ix2 r k)) (hB : ∀ k : Fin 128, (B (ix2 k q) : EReal) = W (ix2 k q)) :
    (matmul (F := Ideal) dot_S5000x128_S128x64_S5000x64_1_0_0_1_n_n none T B (constant (F := Ideal) S5000x64 .f32 0x00000000#32) (ix2 p q) : EReal)
      = Host.dotGeneral (F := Ideal) Cert.ReferenceIdeal.dot_S50000x128_S128x64_S50000x64_1_0_0_1_n_n none X W (ix2 r q) :=
  TileMatmul.matmul_tile_eq_dotGeneral _ _ none none T B X W p q r hT hB

/-- What the body stores at (p, q) of its tile, when the tile's row p is row r of the table: the layer at (r, q). -/
theorem stored1_apply (x0 : Vec Ideal S5000x128 .f32) (x1 : Vec Ideal S128x64 .f32) (x2 : Vec Ideal S1x64 .f32)
    (X : FVec Ideal Cert.ReferenceIdeal.S50000x128 .f32) (W : FVec Ideal Cert.ReferenceIdeal.S128x64 .f32)
    (b2 : FVec Ideal Cert.ReferenceIdeal.S1x64 .f32) (p : Fin 5000) (q : Fin 64) (r : Fin 50000)
    (hx : ∀ k : Fin 128, x0 (ix2 p k) = X (ix2 r k)) (hw : ∀ k : Fin 128, x1 (ix2 k q) = W (ix2 k q))
    (hb : x2 (ix2 (0 : Fin 1) q) = b2 (ix2 (0 : Fin 1) q)) :
    k0_pay1 (F := Ideal) x0 x1 x2 (ix2 p q) = Cert.Spec.lin1Row X W b2 (ix2 r q) := by
  unfold k0_pay1 Cert.Spec.lin1Row
  refine (addf_apply _ _ _).trans (Eq.trans (congrArg₂ (fun a b : EReal => a + b) ?_ ?_) (addf_apply _ _ _).symm)
  · exact tileDot1 _ _ X W p q r (fun k => hx k) (fun k => hw k)
  · exact biasRow_apply x2 b2 _ _ _ p q r hb

/-- The printed index maps of the region, decided over its ten grid points: the feature table's tile moves with the
    output's, the weight and the bias row are whole at every point, and the output's tile index is at most 9. -/
theorem idxFacts1 : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_3.index t (0 : Fin 2) ≤ 9 :=
  (by decide +kernel : ∀ t : Fin grid0.N, _)

/-- Every one of the ten row tiles is some grid point's. -/
theorem idxOnto1 : ∀ q0 : Fin 10, ∃ t : Fin cfg0.N, win0_3.index t = ![q0.val, 0] :=
  (by decide +kernel : ∀ q0 : Fin 10, ∃ t : Fin grid0.N, win0_3.index t = ![q0.val, 0])

/-- Tile `t` of a [50000, 128] table: its entry (p, k) is the table's entry (5000 t + p, k). -/
theorem readTile1 (t : Fin cfg0.N) (A : FVec Ideal S50000x128 .f32) (p : Fin 5000) (k : Fin 128) (r : Fin 50000)
    (hr : r.val = win0_0.index t (0 : Fin 2) * 5000 + p.val) (h1 : win0_0.index t (1 : Fin 2) = 0) :
    (((cfg0.win 0).blk t).view.read (Elt Ideal) A : Vec Ideal S5000x128 .f32) (ix2 p k) = A (ix2 r k) := by
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight's window is the whole [128, 64] weight. -/
theorem readWeight1 (t : Fin cfg0.N) (A : FVec Ideal S128x64 .f32) (k : Fin 128) (q : Fin 64)
    (h0 : win0_1.index t (0 : Fin 2) = 0) (h1 : win0_1.index t (1 : Fin 2) = 0) :
    (((cfg0.win 1).blk t).view.read (Elt Ideal) A : Vec Ideal S128x64 .f32) (ix2 k q) = A (ix2 k q) := by
  show A (((cfg0.win 1).blk t).view.emb (ix2 k q)) = A (ix2 k q)
  refine congrArg A (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- The bias row's window is the whole [1, 64] row. -/
theorem readBias1 (t : Fin cfg0.N) (A : FVec Ideal S1x64 .f32) (q : Fin 64)
    (h0 : win0_2.index t (0 : Fin 2) = 0) (h1 : win0_2.index t (1 : Fin 2) = 0) :
    (((cfg0.win 2).blk t).view.read (Elt Ideal) A : Vec Ideal S1x64 .f32) (ix2 (0 : Fin 1) q) = A (ix2 (0 : Fin 1) q) := by
  show A (((cfg0.win 2).blk t).view.emb (ix2 (0 : Fin 1) q)) = A (ix2 (0 : Fin 1) q)
  refine congrArg A (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 64 + 1 * q.val = q.val; omega

/-- What a point writes back is its tile of `G` as soon as the buffer's entry (p, q) is `G` at (5000 t + p, q). -/
theorem flushedOfRows1 (t : Fin cfg0.N) (P : Vec Ideal S5000x64 .f32) (G : FVec Ideal S50000x64 .f32)
    (h : ∀ (p : Fin 5000) (q : Fin 64) (r : Fin 50000), r.val = win0_3.index t (0 : Fin 2) * 5000 + p.val →
      P (ix2 p q) = G (ix2 r q)) :
    (cfg0.win 3).cut (grid0.coords t) P = ((cfg0.win 3).blk t).view.read (Elt Ideal) G := by
  obtain ⟨-, -, -, -, -, -, e1, e0⟩ := idxFacts1 t
  funext j
  have hj0 : (j 0).val < 5000 := (j 0).isLt
  have hj1 : (j 1).val < 64 := (j 1).isLt
  have hl : (cfg0.win 3).cut (grid0.coords t) P j = P (ix2 (⟨(j 0).val, hj0⟩ : Fin 5000) (⟨(j 1).val, hj1⟩ : Fin 64)) :=
    congrArg P (funext fun a => by match a with | ⟨0, _⟩ => rfl | ⟨1, _⟩ => rfl)
  have hr : ((cfg0.win 3).blk t).view.read (Elt Ideal) G j
      = G (ix2 (⟨win0_3.index t (0 : Fin 2) * 5000 + (j 0).val, by omega⟩ : Fin 50000) (⟨(j 1).val, hj1⟩ : Fin 64)) := by
    show G (((cfg0.win 3).blk t).view.emb j) = _
    refine congrArg G (funext fun a => Fin.ext ?_)
    match a with
    | ⟨0, _⟩ => show win0_3.index t (0 : Fin 2) * 5000 + 1 * (j 0).val = win0_3.index t (0 : Fin 2) * 5000 + (j 0).val; omega
    | ⟨1, _⟩ => show win0_3.index t (1 : Fin 2) * 64 + 1 * (j 1).val = (j 1).val; omega
  exact hl.trans ((h _ _ _ rfl).trans hr.symm)

/-- What grid point `t` writes back is tile `t` of the layer of the arrays the region finds. -/
theorem flushed1 (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.lin1Row (V c main_arg0) (V c main_arg2) (V c main_v4)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x64) zeroOffsets,
    View.ld_unit_zero (S := S1x64) zeroOffsets]
  obtain ⟨e00, e01, e10, e11, e20, e21, e31, e30⟩ := idxFacts1 t
  refine flushedOfRows1 t _ _ fun p q r hr => ?_
  refine stored1_apply _ _ _ _ _ _ p q r (fun k => ?_) (fun k => ?_) ?_
  · exact readTile1 t (V c main_arg0) p k r (by omega) e01
  · exact readWeight1 t (V c main_arg2) k q e10 e11
  · exact readBias1 t (V c main_v4) q e20 e21

/-- A row of the array lies in point `t`'s tile iff each coordinate is in the tile's range on its axis. -/
theorem memTile1 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- The ten tiles cover the array: row r lies in tile r / 5000. -/
theorem cover1 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idxOnto1 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [memTile1]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- THE FIRST LAYER: the array the region leaves is `x · W + b` of the arrays it finds. -/
theorem arr0 (V : (c : Dev nD) → (b : Ref sig .tc) → Buf (Elt Ideal) ((c : Thread nD τ).loc b)) (c : Dev nD) :
    (dat0 (F := Ideal) V c).arrAt 3 cfg0.N = Cert.Spec.lin1Row (V c main_arg0) (V c main_arg2) (V c main_v4) :=
  (dat0 (F := Ideal) V c).arrAt_eq_of_cover 3 _ (fun t _ => flushed1 V c t) cover1

/-! ## The second layer (64 features in) -/

/-- A 5000-row tile's product into the zero accumulator is, row by row, the whole table's product. -/
theorem tileDot2 (T : FVec Ideal S5000x64 .bf16) (B : FVec Ideal S64x64 .bf16)
    (X : FVec Ideal Cert.ReferenceIdeal.S50000x64 .f32) (W : FVec Ideal Cert.ReferenceIdeal.S64x64 .f32)
    (p : Fin 5000) (q : Fin 64) (r : Fin 50000)
    (hT : ∀ k : Fin 64, (T (ix2 p k) : EReal) = X (ix2 r k)) (hB : ∀ k : Fin 64, (B (ix2 k q) : EReal) = W (ix2 k q)) :
    (matmul (F := Ideal) dot_S5000x64_S64x64_S5000x64_1_0_0_1_n_n none T B (constant (F := Ideal) S5000x64 .f32 0x00000000#32) (ix2 p q) : EReal)
      = Host.dotGeneral (F := Ideal) Cert.ReferenceIdeal.dot_S50000x64_S64x64_S50000x64_1_0_0_1_n_n none X W (ix2 r q) :=
  TileMatmul.matmul_tile_eq_dotGeneral _ _ none none T B X W p q r hT hB

/-- What the body stores at (p, q) of its tile, when the tile's row p is row r of the table: the layer at (r, q). -/
theorem stored2_apply (x0 : Vec Ideal S5000x64 .f32) (x1 : Vec Ideal S64x64 .f32) (x2 : Vec Ideal S1x64 .f32)
    (X : FVec Ideal Cert.ReferenceIdeal.S50000x64 .f32) (W : FVec Ideal Cert.ReferenceIdeal.S64x64 .f32)
    (b2 : FVec Ideal Cert.ReferenceIdeal.S1x64 .f32) (p : Fin 5000) (q : Fin 64) (r : Fin 50000)
    (hx : ∀ k : Fin 64, x0 (ix2 p k) = X (ix2 r k)) (hw : ∀ k : Fin 64, x1 (ix2 k q) = W (ix2 k q))
    (hb : x2 (ix2 (0 : Fin 1) q) = b2 (ix2 (0 : Fin 1) q)) :
    k3_pay1 (F := Ideal) x0 x1 x2 (ix2 p q) = Cert.Spec.lin2Row X W b2 (ix2 r q) := by
  unfold k3_pay1 Cert.Spec.lin2Row
  refine (addf_apply _ _ _).trans (Eq.trans (congrArg₂ (fun a b : EReal => a + b) ?_ ?_) (addf_apply _ _ _).symm)
  · exact tileDot2 _ _ X W p q r (fun k => (congrFun (shapeCast_self x0 _) (ix2 p k)).trans (hx k)) (fun k => hw k)
  · exact biasRow_apply x2 b2 _ _ _ p q r hb

/-- The printed index maps of the region, decided over its ten grid points: the feature table's tile moves with the
    output's, the weight and the bias row are whole at every point, and the output's tile index is at most 9. -/
theorem idxFacts2 : ∀ t : Fin cfg3.N,
    win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0
    ∧ win3_3.index t (0 : Fin 2) ≤ 9 :=
  (by decide +kernel : ∀ t : Fin grid3.N, _)

/-- Every one of the ten row tiles is some grid point's. -/
theorem idxOnto2 : ∀ q0 : Fin 10, ∃ t : Fin cfg3.N, win3_3.index t = ![q0.val, 0] :=
  (by decide +kernel : ∀ q0 : Fin 10, ∃ t : Fin grid3.N, win3_3.index t = ![q0.val, 0])

/-- Tile `t` of a [50000, 64] table: its entry (p, k) is the table's entry (5000 t + p, k). -/
theorem readTile2 (t : Fin cfg3.N) (A : FVec Ideal S50000x64 .f32) (p : Fin 5000) (k : Fin 64) (r : Fin 50000)
    (hr : r.val = win3_0.index t (0 : Fin 2) * 5000 + p.val) (h1 : win3_0.index t (1 : Fin 2) = 0) :
    (((cfg3.win 0).blk t).view.read (Elt Ideal) A : Vec Ideal S5000x64 .f32) (ix2 p k) = A (ix2 r k) := by
  show A (((cfg3.win 0).blk t).view.emb (ix2 p k)) = A (ix2 r k)
  refine congrArg A (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- The weight's window is the whole [64, 64] weight. -/
theorem readWeight2 (t : Fin cfg3.N) (A : FVec Ideal S64x64 .f32) (k : Fin 64) (q : Fin 64)
    (h0 : win3_1.index t (0 : Fin 2) = 0) (h1 : win3_1.index t (1 : Fin 2) = 0) :
    (((cfg3.win 1).blk t).view.read (Elt Ideal) A : Vec Ideal S64x64 .f32) (ix2 k q) = A (ix2 k q) := by
  show A (((cfg3.win 1).blk t).view.emb (ix2 k q)) = A (ix2 k q)
  refine congrArg A (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- The bias row's window is the whole [1, 64] row. -/
theorem readBias2 (t : Fin cfg3.N) (A : FVec Ideal S1x64 .f32) (q : Fin 64)
    (h0 : win3_2.index t (0 : Fin 2) = 0) (h1 : win3_2.index t (1 : Fin 2) = 0) :
    (((cfg3.win 2).blk t).view.read (Elt Ideal) A : Vec Ideal S1x64 .f32) (ix2 (0 : Fin 1) q) = A (ix2 (0 : Fin 1) q) := by
  show A (((cfg3.win 2).blk t).view.emb (ix2 (0 : Fin 1) q)) = A (ix2 (0 : Fin 1) q)
  refine congrArg A (funext fun a => Fin.ext ?_)
  match a with
  | ⟨0, _⟩ => show win3_2.index t (0 : Fin 2) * 1 + 1 * (0 : Fin 1).val = (0 : Fin 1).val; omega
  | ⟨1, _⟩ => show win3_2.index t (1 : Fin 2) * 64 + 1 * q.val = q.val; omega

/-- What a point writes back is its tile of `G` as soon as the buffer's entry (p, q) is `G` at (5000 t + p, q). -/
theorem flushedOfRows2 (t : Fin cfg3.N) (P : Vec Ideal S5000x64 .f32) (G : FVec Ideal S50000x64 .f32)
    (h : ∀ (p : Fin 5000) (q : Fin 64) (r : Fin 50000), r.val = win3_3.index t (0 : Fin 2) * 5000 + p.val →
      P (ix2 p q) = G (ix2 r q)) :
    (cfg3.win 3).cut (grid3.coords t) P = ((cfg3.win 3).blk t).view.read (Elt Ideal) G := by
  obtain ⟨-, -, -, -, -, -, e1, e0⟩ := idxFacts2 t
  funext j
  have hj0 : (j 0).val < 5000 := (j 0).isLt
  have hj1 : (j 1).val < 64 := (j 1).isLt
  have hl : (cfg3.win 3).cut (grid3.coords t) P j = P (ix2 (⟨(j 0).val, hj0⟩ : Fin 5000) (⟨(j 1).val, hj1⟩ : Fin 64)) :=
    congrArg P (funext fun a => by match a with | ⟨0, _⟩ => rfl | ⟨1, _⟩ => rfl)
  have hr : ((cfg3.win 3).blk t).view.read (Elt Ideal) G j
      = G (ix2 (⟨win3_3.index t (0 : Fin 2) * 5000 + (j 0).val, by omega⟩ : Fin 50000) (⟨(j 1).val, hj1⟩ : Fin 64)) := by
    show G (((cfg3.win 3).blk t).view.emb j) = _
    refine congrArg G (funext fun a => Fin.ext ?_)
    match a with
    | ⟨0, _⟩ => show win3_3.index t (0 : Fin 2) * 5000 + 1 * (j 0).val = win3_3.index t (0 : Fin 2) * 5000 + (j 0).val; omega
    | ⟨1, _⟩ => show win3_3.index t (1 : Fin 2) * 64 + 1 * (j 1).val = (j 1).val; omega
  exact hl.trans ((h _ _ _ rfl).trans hr.symm)

/-- What grid point `t` writes back is tile `t` of the layer of the arrays the region finds. -/
theorem flushed2 (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Spec.lin2Row (V c main_v19) (V c main_arg4) (V c main_v20)) := by
  show (cfg3.win 3).cut (grid3.coords t) ((dat3 V c).after 3 t) = _
  rw [after3_3]
  unfold out3_3
  rw [View.canon_unit_zero zeroOffsets]
  simp only [View.ld_unit_zero (S := S5000x64) zeroOffsets, View.ld_unit_zero (S := S64x64) zeroOffsets,
    View.ld_unit_zero (S := S1x64) zeroOffsets]
  obtain ⟨e00, e01, e10, e11, e20, e21, e31, e30⟩ := idxFacts2 t
  refine flushedOfRows2 t _ _ fun p q r hr => ?_
  refine stored2_apply _ _ _ _ _ _ p q r (fun k => ?_) (fun k => ?_) ?_
  · exact readTile2 t (V c main_v19) p k r (by omega) e01
  · exact readWeight2 t (V c main_arg4) k q e10 e11
  · exact readBias2 t (V c main_v20) q e20 e21

/-- A row of the array lies in point `t`'s tile iff each coordinate is in the tile's range on its axis. -/
theorem memTile2 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v21).slice (win3_3.rect t)).set ↔ _
  rw [View.set_slice_whole, Rect.mem_set_unit]
  exact Iff.rfl

/-- The ten tiles cover the array: row r lies in tile r / 5000. -/
theorem cover2 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idxOnto2 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [memTile2]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- THE SECOND LAYER: the array the region leaves is `h · W + b` of the arrays it finds. -/
theorem arr3 (V : (c : Dev nD) → (b : Ref sig .tc) → Buf (Elt Ideal) ((c : Thread nD τ).loc b)) (c : Dev nD) :
    (dat3 (F := Ideal) V c).arrAt 3 cfg3.N = Cert.Spec.lin2Row (V c main_v19) (V c main_arg4) (V c main_v20) :=
  (dat3 (F := Ideal) V c).arrAt_eq_of_cover 3 _ (fun t _ => flushed2 V c t) cover2

end Cert.KernelIdeal.RegionLin

end
-- ==== Proof.RegionMul.lean ====
/-
  The tiled edge multiply, read as one whole-array function.

  Two of the network's stages scale every edge's row of a [1200000, 64] table g by that edge's entry of a
  [1200000, 1] column w: entry (e, d) of the result is g(e, d) · w(e, 0). The computation runs over 150 tiles of
  8000 rows: tile t holds rows 8000 t … 8000 t + 7999 of each operand, multiplies the row tile by the column tile
  broadcast along the 64 columns, and writes the product back as rows 8000 t … of the result. Row r lies in tile
  r / 8000, so the tiles written back cover the result, which therefore is the scaled table `scaleRows g w`; and
  that table is the product of g with the column broadcast along the rows, `Cert.Spec.msgCol g w`.
-/
import proofs.«112303_j23192823399233_2_alg».proof.Proof.Gen.KernelIdeal.Frame
import proofs.«112303_j23192823399233_2_alg».proof.Proof.Gen.ReferenceIdeal
import proofs.«112303_j23192823399233_2_alg».proof.Proof.Spec
import Idealize.ShloMosaic.Lib.Pipeline.Value
import Idealize.ShloMosaic.Lib.ValueIdx

noncomputable section

namespace Cert.KernelIdeal.RegionMul

open Idealize.ShloMosaic Idealize.ShloMosaic.TcCoe Idealize.SL.Sem Cert.KernelIdeal Cert.KernelIdeal.Gen
open Idealize.ShloMosaic.Pipeline (Dat)
open Idealize.ShloMosaic.ValueIdx

/-! ## The scaling, index by index -/

/-- The zero offsets of a store or load of a whole tile. -/
theorem hz : (![0, 0] : Fin 2 → Nat) = fun _ => 0 := funext fun a => by fin_cases a <;> rfl

/-- Every row of a table scaled by the one entry of the same row of a column, index by index. -/
def scaleRows (g : FVec Ideal S1200000x64 .f32) (w : FVec Ideal S1200000x1 .f32) : FVec Ideal S1200000x64 .f32 :=
  fun i => g i * w (ix2 (i 0 : Fin 1200000) (0 : Fin 1))

set_option maxHeartbeats 200000 in
/-- The column broadcast along the rows and multiplied in is that scaling. -/
theorem scaleRows_eq (g : FVec Ideal S1200000x64 .f32) (w : FVec Ideal S1200000x1 .f32) :
    scaleRows g w = Cert.Spec.msgCol g w := by
  funext i
  unfold Cert.Spec.msgCol scaleRows
  rw [mulf_apply]
  refine congrArg (fun z => g i * z) ?_
  refine (broadcastInDim_apply _ _ w i (ix2 (i 0 : Fin 1200000) (0 : Fin 1)) fun a => ?_).symm
  match a with
  | ⟨0, _⟩ => rfl
  | ⟨1, _⟩ => rfl

variable (V : (c : Dev nD) → (b : Ref sig .tc) → Buf (Elt Ideal) ((c : Thread nD τ).loc b))

/-! ## Region 1: rows [8000 t, 8000 (t + 1)) at grid point t -/

set_option maxHeartbeats 200000 in
/-- One tile of the product: entry (p, q) is the tile's entry times the column tile's entry of row p. -/
theorem pay1_apply (x0 : FVec Ideal S8000x64 .f32) (x1 : FVec Ideal S8000x1 .f32) (p : Fin 8000) (q : Fin 64) :
    k1_pay1 x0 x1 (ix2 p q) = x0 (ix2 p q) * x1 (ix2 p (0 : Fin 1)) := by
  unfold k1_pay1
  rw [mulf_apply, shapeCast_self, shapeCast_self]
  refine congrArg (fun z => x0 (ix2 p q) * z) ?_
  refine broadcastTo_apply x1 _ (ix2 p q) (ix2 p (0 : Fin 1)) fun a => ?_
  match a with
  | ⟨0, _⟩ => rfl
  | ⟨1, _⟩ => rfl

/-- The three windows' block indices, decided over the 150 grid points: block t of the rows, block 0 of the columns. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row p of tile t as a row of the whole table. -/
def row1 (t : Fin cfg1.N) (p : Fin 8000) : Fin 1200000 :=
  ⟨t.val * 8000 + p.val, by have h : t.val < 150 := lt_of_lt_of_eq t.isLt N_1; have := p.isLt; omega⟩

set_option maxHeartbeats 200000 in
/-- Tile t of the first operand, read off any table A, is rows 8000 t … of A. -/
theorem read_blk1_0 (t : Fin cfg1.N) (A : FVec Ideal S1200000x64 .f32) (p : Fin 8000) (q : Fin 64) :
    (((cfg1.win 0).blk t).view.read (Elt Ideal) A : FVec Ideal S8000x64 .f32) (ix2 p q) = A (ix2 (row1 t p) q) := by
  obtain ⟨e0, e1, -, -, -, -⟩ := idx_facts1 t
  rw [View.read_apply]
  show A _ = A _
  refine congrArg A (funext fun a => Fin.ext ?_)
  match a with
  | ⟨0, _⟩ => show win1_0.index t (0 : Fin 2) * 8000 + 1 * p.val = t.val * 8000 + p.val; rw [e0]; omega
  | ⟨1, _⟩ => show win1_0.index t (1 : Fin 2) * 64 + 1 * q.val = q.val; rw [e1]; omega

set_option maxHeartbeats 200000 in
/-- Tile t of the column operand, read off any column B, is rows 8000 t … of B. -/
theorem read_blk1_1 (t : Fin cfg1.N) (B : FVec Ideal S1200000x1 .f32) (p : Fin 8000) :
    (((cfg1.win 1).blk t).view.read (Elt Ideal) B : FVec Ideal S8000x1 .f32) (ix2 p (0 : Fin 1)) = B (ix2 (row1 t p) (0 : Fin 1)) := by
  obtain ⟨-, -, e0, e1, -, -⟩ := idx_facts1 t
  rw [View.read_apply]
  show B _ = B _
  refine congrArg B (funext fun a => Fin.ext ?_)
  match a with
  | ⟨0, _⟩ => show win1_1.index t (0 : Fin 2) * 8000 + 1 * p.val = t.val * 8000 + p.val; rw [e0]; omega
  | ⟨1, _⟩ => show win1_1.index t (1 : Fin 2) * 1 + 1 * 0 = 0; rw [e1]

set_option maxHeartbeats 200000 in
/-- Tile t of the result, read off any table G, is rows 8000 t … of G. -/
theorem read_blk1_2 (t : Fin cfg1.N) (G : FVec Ideal S1200000x64 .f32) (p : Fin 8000) (q : Fin 64) :
    (((cfg1.win 2).blk t).view.read (Elt Ideal) G : FVec Ideal S8000x64 .f32) (ix2 p q) = G (ix2 (row1 t p) q) := by
  obtain ⟨-, -, -, -, e0, e1⟩ := idx_facts1 t
  rw [View.read_apply]
  show G _ = G _
  refine congrArg G (funext fun a => Fin.ext ?_)
  match a with
  | ⟨0, _⟩ => show win1_2.index t (0 : Fin 2) * 8000 + 1 * p.val = t.val * 8000 + p.val; rw [e0]; omega
  | ⟨1, _⟩ => show win1_2.index t (1 : Fin 2) * 64 + 1 * q.val = q.val; rw [e1]; omega

set_option maxHeartbeats 200000 in
/-- What a point writes back of a tile X it holds is X itself: the result's tiles are never cut. -/
theorem cut1_2 (t : Fin cfg1.N) (X : FVec Ideal S8000x64 .f32) : (cfg1.win 2).cut (α := Elt Ideal .f32) (grid1.coords t) X = X := rfl

set_option maxHeartbeats 200000 in
/-- The product of two tiles that are rows 8000 t … of tables A and B is tile t of the scaled table. -/
theorem tile1_eq (t : Fin cfg1.N) (x0 : FVec Ideal S8000x64 .f32) (x1 : FVec Ideal S8000x1 .f32)
    (A : FVec Ideal S1200000x64 .f32) (B : FVec Ideal S1200000x1 .f32)
    (h0 : ∀ (p : Fin 8000) (q : Fin 64), x0 (ix2 p q) = A (ix2 (row1 t p) q))
    (h1 : ∀ p : Fin 8000, x1 (ix2 p (0 : Fin 1)) = B (ix2 (row1 t p) (0 : Fin 1))) :
    (cfg1.win 2).cut (α := Elt Ideal .f32) (grid1.coords t) (k1_pay1 (F := Ideal) x0 x1) = ((cfg1.win 2).blk t).view.read (Elt Ideal) (scaleRows A B) := by
  rw [cut1_2]
  funext j
  obtain ⟨p, q, rfl⟩ : ∃ (p : Fin 8000) (q : Fin 64), j = ix2 p q := ⟨j 0, j 1, eq_ix2 j⟩
  rw [pay1_apply, h0, h1]
  exact (read_blk1_2 t (scaleRows A B) p q).symm

set_option maxHeartbeats 200000 in
/-- The first operand's tile as the region finds it is rows 8000 t … of the operand. -/
theorem iblk1_0_apply (c : Dev nD) (t : Fin cfg1.N) (p : Fin 8000) (q : Fin 64) :
    (iblk1 (F := Ideal) V c 0 t : FVec Ideal S8000x64 .f32) (ix2 p q) = (V c main_v12 : FVec Ideal S1200000x64 .f32) (ix2 (row1 t p) q) :=
  read_blk1_0 t (V c main_v12) p q

set_option maxHeartbeats 200000 in
/-- The column operand's tile as the region finds it is rows 8000 t … of the column. -/
theorem iblk1_1_apply (c : Dev nD) (t : Fin cfg1.N) (p : Fin 8000) :
    (iblk1 (F := Ideal) V c 1 t : FVec Ideal S8000x1 .f32) (ix2 p (0 : Fin 1)) = (V c main_v13 : FVec Ideal S1200000x1 .f32) (ix2 (row1 t p) (0 : Fin 1)) :=
  read_blk1_1 t (V c main_v13) p

set_option maxHeartbeats 400000 in
/-- What grid point t writes back is tile t of the scaled table of the two operands as the region finds them. -/
theorem flushed1_eq (c : Dev nD) (t : Fin cfg1.N) :
    (dat1 (F := Ideal) V c).flushed 2 t = ((cfg1.win 2).blk t).view.read (Elt Ideal) (scaleRows (V c main_v12) (V c main_v13)) := by
  show (cfg1.win 2).cut (grid1.coords t) ((dat1 (F := Ideal) V c).after 2 t) = _
  rw [after1_2]
  unfold out1_2
  rw [View.canon_unit_zero hz]
  simp only [View.ld_unit_zero (S := S8000x64) hz, View.ld_unit_zero (S := S8000x1) hz]
  exact tile1_eq t (iblk1 (F := Ideal) V c 0 t) (iblk1 (F := Ideal) V c 1 t) (V c main_v12) (V c main_v13)
    (iblk1_0_apply V c t) (iblk1_1_apply V c t)

set_option maxHeartbeats 200000 in
/-- A row and column of the result lie in point t's tile iff each lies in the tile's range on its axis. -/
theorem mem_blk1 (t : Fin cfg1.N) (i : S1200000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v14).slice (win1_2.rect t)).set ↔ _
  rw [View.set_slice_whole, Rect.mem_set_unit]
  exact Iff.rfl

set_option maxHeartbeats 200000 in
/-- Every entry of the result is in some point's tile: row r is in tile r / 8000. -/
theorem cover1 (i : S1200000x64.Idx) :
    ∃ t : Fin cfg1.N, (cfg1.win 2).flush t = true ∧ i ∈ ((cfg1.win 2).blk t).view.set := by
  have hi0 : (i 0).val < 1200000 := (i 0).isLt
  have hi1 : (i 1).val < 64 := (i 1).isLt
  have hN : cfg1.N = 150 := N_1
  let t : Fin cfg1.N := ⟨(i 0).val / 8000, by rw [hN]; omega⟩
  have ht : t.val = (i 0).val / 8000 := rfl
  obtain ⟨-, -, -, -, e0, e1⟩ := idx_facts1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; rw [e0, ht]; omega
  | ⟨1, _⟩ => show win1_2.index t (1 : Fin 2) * 64 ≤ (i 1).val ∧ (i 1).val < win1_2.index t (1 : Fin 2) * 64 + 64; rw [e1]; omega

set_option maxHeartbeats 400000 in
/-- REGION 1: the array it leaves is every edge's row scaled by that edge's entry of the column. -/
theorem arr1 (c : Dev nD) :
    (dat1 (F := Ideal) V c).arrAt 2 cfg1.N = Cert.Spec.msgCol (V c main_v12) (V c main_v13) := by
  rw [← scaleRows_eq]
  exact (dat1 (F := Ideal) V c).arrAt_eq_of_cover 2 (scaleRows (V c main_v12) (V c main_v13)) (fun t _ => flushed1_eq V c t) cover1

/-! ## Region 4: rows [8000 t, 8000 (t + 1)) at grid point t -/

set_option maxHeartbeats 200000 in
/-- One tile of the product: entry (p, q) is the tile's entry times the column tile's entry of row p. -/
theorem pay4_apply (x0 : FVec Ideal S8000x64 .f32) (x1 : FVec Ideal S8000x1 .f32) (p : Fin 8000) (q : Fin 64) :
    k4_pay1 x0 x1 (ix2 p q) = x0 (ix2 p q) * x1 (ix2 p (0 : Fin 1)) := by
  unfold k4_pay1
  rw [mulf_apply, shapeCast_self, shapeCast_self]
  refine congrArg (fun z => x0 (ix2 p q) * z) ?_
  refine broadcastTo_apply x1 _ (ix2 p q) (ix2 p (0 : Fin 1)) fun a => ?_
  match a with
  | ⟨0, _⟩ => rfl
  | ⟨1, _⟩ => rfl

/-- The three windows' block indices, decided over the 150 grid points: block t of the rows, block 0 of the columns. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row p of tile t as a row of the whole table. -/
def row4 (t : Fin cfg4.N) (p : Fin 8000) : Fin 1200000 :=
  ⟨t.val * 8000 + p.val, by have h : t.val < 150 := lt_of_lt_of_eq t.isLt N_4; have := p.isLt; omega⟩

set_option maxHeartbeats 200000 in
/-- Tile t of the first operand, read off any table A, is rows 8000 t … of A. -/
theorem read_blk4_0 (t : Fin cfg4.N) (A : FVec Ideal S1200000x64 .f32) (p : Fin 8000) (q : Fin 64) :
    (((cfg4.win 0).blk t).view.read (Elt Ideal) A : FVec Ideal S8000x64 .f32) (ix2 p q) = A (ix2 (row4 t p) q) := by
  obtain ⟨e0, e1, -, -, -, -⟩ := idx_facts4 t
  rw [View.read_apply]
  show A _ = A _
  refine congrArg A (funext fun a => Fin.ext ?_)
  match a with
  | ⟨0, _⟩ => show win4_0.index t (0 : Fin 2) * 8000 + 1 * p.val = t.val * 8000 + p.val; rw [e0]; omega
  | ⟨1, _⟩ => show win4_0.index t (1 : Fin 2) * 64 + 1 * q.val = q.val; rw [e1]; omega

set_option maxHeartbeats 200000 in
/-- Tile t of the column operand, read off any column B, is rows 8000 t … of B. -/
theorem read_blk4_1 (t : Fin cfg4.N) (B : FVec Ideal S1200000x1 .f32) (p : Fin 8000) :
    (((cfg4.win 1).blk t).view.read (Elt Ideal) B : FVec Ideal S8000x1 .f32) (ix2 p (0 : Fin 1)) = B (ix2 (row4 t p) (0 : Fin 1)) := by
  obtain ⟨-, -, e0, e1, -, -⟩ := idx_facts4 t
  rw [View.read_apply]
  show B _ = B _
  refine congrArg B (funext fun a => Fin.ext ?_)
  match a with
  | ⟨0, _⟩ => show win4_1.index t (0 : Fin 2) * 8000 + 1 * p.val = t.val * 8000 + p.val; rw [e0]; omega
  | ⟨1, _⟩ => show win4_1.index t (1 : Fin 2) * 1 + 1 * 0 = 0; rw [e1]

set_option maxHeartbeats 200000 in
/-- Tile t of the result, read off any table G, is rows 8000 t … of G. -/
theorem read_blk4_2 (t : Fin cfg4.N) (G : FVec Ideal S1200000x64 .f32) (p : Fin 8000) (q : Fin 64) :
    (((cfg4.win 2).blk t).view.read (Elt Ideal) G : FVec Ideal S8000x64 .f32) (ix2 p q) = G (ix2 (row4 t p) q) := by
  obtain ⟨-, -, -, -, e0, e1⟩ := idx_facts4 t
  rw [View.read_apply]
  show G _ = G _
  refine congrArg G (funext fun a => Fin.ext ?_)
  match a with
  | ⟨0, _⟩ => show win4_2.index t (0 : Fin 2) * 8000 + 1 * p.val = t.val * 8000 + p.val; rw [e0]; omega
  | ⟨1, _⟩ => show win4_2.index t (1 : Fin 2) * 64 + 1 * q.val = q.val; rw [e1]; omega

set_option maxHeartbeats 200000 in
/-- What a point writes back of a tile X it holds is X itself: the result's tiles are never cut. -/
theorem cut4_2 (t : Fin cfg4.N) (X : FVec Ideal S8000x64 .f32) : (cfg4.win 2).cut (α := Elt Ideal .f32) (grid4.coords t) X = X := rfl

set_option maxHeartbeats 200000 in
/-- The product of two tiles that are rows 8000 t … of tables A and B is tile t of the scaled table. -/
theorem tile4_eq (t : Fin cfg4.N) (x0 : FVec Ideal S8000x64 .f32) (x1 : FVec Ideal S8000x1 .f32)
    (A : FVec Ideal S1200000x64 .f32) (B : FVec Ideal S1200000x1 .f32)
    (h0 : ∀ (p : Fin 8000) (q : Fin 64), x0 (ix2 p q) = A (ix2 (row4 t p) q))
    (h1 : ∀ p : Fin 8000, x1 (ix2 p (0 : Fin 1)) = B (ix2 (row4 t p) (0 : Fin 1))) :
    (cfg4.win 2).cut (α := Elt Ideal .f32) (grid4.coords t) (k4_pay1 (F := Ideal) x0 x1) = ((cfg4.win 2).blk t).view.read (Elt Ideal) (scaleRows A B) := by
  rw [cut4_2]
  funext j
  obtain ⟨p, q, rfl⟩ : ∃ (p : Fin 8000) (q : Fin 64), j = ix2 p q := ⟨j 0, j 1, eq_ix2 j⟩
  rw [pay4_apply, h0, h1]
  exact (read_blk4_2 t (scaleRows A B) p q).symm

set_option maxHeartbeats 200000 in
/-- The first operand's tile as the region finds it is rows 8000 t … of the operand. -/
theorem iblk4_0_apply (c : Dev nD) (t : Fin cfg4.N) (p : Fin 8000) (q : Fin 64) :
    (iblk4 (F := Ideal) V c 0 t : FVec Ideal S8000x64 .f32) (ix2 p q) = (V c main_v28 : FVec Ideal S1200000x64 .f32) (ix2 (row4 t p) q) :=
  read_blk4_0 t (V c main_v28) p q

set_option maxHeartbeats 200000 in
/-- The column operand's tile as the region finds it is rows 8000 t … of the column. -/
theorem iblk4_1_apply (c : Dev nD) (t : Fin cfg4.N) (p : Fin 8000) :
    (iblk4 (F := Ideal) V c 1 t : FVec Ideal S8000x1 .f32) (ix2 p (0 : Fin 1)) = (V c main_v29 : FVec Ideal S1200000x1 .f32) (ix2 (row4 t p) (0 : Fin 1)) :=
  read_blk4_1 t (V c main_v29) p

set_option maxHeartbeats 400000 in
/-- What grid point t writes back is tile t of the scaled table of the two operands as the region finds them. -/
theorem flushed4_eq (c : Dev nD) (t : Fin cfg4.N) :
    (dat4 (F := Ideal) V c).flushed 2 t = ((cfg4.win 2).blk t).view.read (Elt Ideal) (scaleRows (V c main_v28) (V c main_v29)) := by
  show (cfg4.win 2).cut (grid4.coords t) ((dat4 (F := Ideal) V c).after 2 t) = _
  rw [after4_2]
  unfold out4_2
  rw [View.canon_unit_zero hz]
  simp only [View.ld_unit_zero (S := S8000x64) hz, View.ld_unit_zero (S := S8000x1) hz]
  exact tile4_eq t (iblk4 (F := Ideal) V c 0 t) (iblk4 (F := Ideal) V c 1 t) (V c main_v28) (V c main_v29)
    (iblk4_0_apply V c t) (iblk4_1_apply V c t)

set_option maxHeartbeats 200000 in
/-- A row and column of the result lie in point t's tile iff each lies in the tile's range on its axis. -/
theorem mem_blk4 (t : Fin cfg4.N) (i : S1200000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole main_v30).slice (win4_2.rect t)).set ↔ _
  rw [View.set_slice_whole, Rect.mem_set_unit]
  exact Iff.rfl

set_option maxHeartbeats 200000 in
/-- Every entry of the result is in some point's tile: row r is in tile r / 8000. -/
theorem cover4 (i : S1200000x64.Idx) :
    ∃ t : Fin cfg4.N, (cfg4.win 2).flush t = true ∧ i ∈ ((cfg4.win 2).blk t).view.set := by
  have hi0 : (i 0).val < 1200000 := (i 0).isLt
  have hi1 : (i 1).val < 64 := (i 1).isLt
  have hN : cfg4.N = 150 := N_4
  let t : Fin cfg4.N := ⟨(i 0).val / 8000, by rw [hN]; omega⟩
  have ht : t.val = (i 0).val / 8000 := rfl
  obtain ⟨-, -, -, -, e0, e1⟩ := idx_facts4 t
  refine ⟨t, flush4_2 t, ?_⟩
  rw [mem_blk4]
  intro a
  match a with
  | ⟨0, _⟩ => show win4_2.index t (0 : Fin 2) * 8000 ≤ (i 0).val ∧ (i 0).val < win4_2.index t (0 : Fin 2) * 8000 + 8000; rw [e0, ht]; omega
  | ⟨1, _⟩ => show win4_2.index t (1 : Fin 2) * 64 ≤ (i 1).val ∧ (i 1).val < win4_2.index t (1 : Fin 2) * 64 + 64; rw [e1]; omega

set_option maxHeartbeats 400000 in
/-- REGION 4: the array it leaves is every edge's row scaled by that edge's entry of the column. -/
theorem arr4 (c : Dev nD) :
    (dat4 (F := Ideal) V c).arrAt 2 cfg4.N = Cert.Spec.msgCol (V c main_v28) (V c main_v29) := by
  rw [← scaleRows_eq]
  exact (dat4 (F := Ideal) V c).arrAt_eq_of_cover 2 (scaleRows (V c main_v28) (V c main_v29)) (fun t _ => flushed4_eq V c t) cover4

end Cert.KernelIdeal.RegionMul

end
-- ==== Proof.RegionNorm.lean ====
/-
  The two tiled "mean over the incoming edges" stages, read off their row tiles.

  Each stage walks ten grid points; point `t` holds rows `5000 t … 5000 t + 4999` of the summed messages `s : [50000, 64]`
  and of the column of degrees `d : [50000, 1]`, and stores, for every entry `(p, q)` of its tile,
      s(p, q) / max(d(p, 0), 1)
  — after the first layer passed through the leaky rectifier (`v` where `v ≥ 0`, else the slope word times `v`), after the
  second layer as it is. Entry by entry this is what the specification's whole-array functions `divCol`, `maxCol` and
  `lrelu` give at row `5000 t + p`: a column stretched along a tile's rows and a column laid along the array's rows both
  read the row's own entry, the tile's quotient and the host's quotient are the same ideal quotient, and the float words
  for 0, 1 and the slope are the same words on both sides and are never evaluated. The ten tiles cover the 50000 rows
  (row `r` is in tile `r / 5000`), so each stage's output array ends at the whole-array function of the arrays it found.
-/
import proofs.«112303_j23192823399233_2_alg».proof.Proof.Gen.KernelIdeal.Frame
import proofs.«112303_j23192823399233_2_alg».proof.Proof.Gen.ReferenceIdeal
import proofs.«112303_j23192823399233_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Cert.KernelIdeal Cert.KernelIdeal.Gen
open Idealize.ShloMosaic.ValueIdx

namespace Cert.KernelIdeal.RegionNorm

/-! ## One entry -/

/-- The mean at one entry: the sum `s` over the number of incoming edges `d`, that number taken no less than one. -/
def meanAt (s d : Ideal .f32) : Ideal .f32 := Ideal.div s (max d (Ideal.ofBits .f32 0x3F800000#32))

/-- The leaky rectifier at one entry: `v` where `v ≥ 0`, else the slope word times `v`. -/
def lreluAt (v : Ideal .f32) : Ideal .f32 :=
  Scalar.select (FloatOps.cmpf .oge v (Ideal.ofBits .f32 0x00000000#32)) v (Ideal.ofBits .f32 0x3C23D70A#32 * v)

/-- A scalar laid over every entry of an array reads the scalar. -/
theorem bcast0_apply {α : Type} {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

/-- A column laid along the rows of a [50000, 64] array reads the column's entry of the row. -/
theorem bcastCol_apply {α : Type} (h : S50000x1.BroadcastsInDim S50000x64 ![0, 1]) (x : S50000x1.Idx → α) (p : Fin 50000) (q : Fin 64) :
    broadcastInDim S50000x64 ![0, 1] h x (ix2 p q) = x (ix2 p 0) :=
  broadcastInDim_apply ![0, 1] h x (ix2 p q) (ix2 p 0) (fun a => by match a with | ⟨0, _⟩ => rfl | ⟨1, _⟩ => rfl)

/-- The host's quotient of two arrays at an entry is the ideal quotient of the entries. -/
theorem hostDivf_apply {s : Shape} {φ : FTy} (a b : FVec Ideal s φ) (i : s.Idx) : Host.divf a b i = Ideal.div (a i) (b i) := rfl

set_option maxHeartbeats 200000 in
/-- The mean, as the specification composes it, at entry `(p, q)`. -/
theorem spec_mean_apply (s : FVec Ideal S50000x64 .f32) (d : FVec Ideal S50000x1 .f32) (p : Fin 50000) (q : Fin 64) :
    Cert.Spec.divCol s (Cert.Spec.maxCol d) (ix2 p q) = meanAt (s (ix2 p q)) (d (ix2 p 0)) := by
  unfold Cert.Spec.divCol Cert.Spec.maxCol meanAt
  rw [hostDivf_apply, bcastCol_apply]
  rfl

set_option maxHeartbeats 200000 in
/-- The rectified mean, as the specification composes it, at entry `(p, q)`. -/
theorem spec_lrelu_apply (s : FVec Ideal S50000x64 .f32) (d : FVec Ideal S50000x1 .f32) (p : Fin 50000) (q : Fin 64) :
    Cert.Spec.lrelu (Cert.Spec.divCol s (Cert.Spec.maxCol d)) (ix2 p q) = lreluAt (meanAt (s (ix2 p q)) (d (ix2 p 0))) := by
  unfold Cert.Spec.lrelu lreluAt
  rw [select_apply, cmpf_apply, mulf_apply, bcast0_apply, bcast0_apply, spec_mean_apply]
  rfl

/-! ## The tile's payload at an entry -/

/-- A [5000, 1] column stretched along the rows of a [5000, 64] tile reads the column's entry of the row. -/
theorem stretchCol_apply {α : Type} (h : S5000x1.Broadcasts S5000x64) (x : S5000x1.Idx → α) (p : Fin 5000) (q : Fin 64) :
    broadcastTo S5000x64 x h (ix2 p q) = x (ix2 p 0) :=
  broadcastTo_apply x h (ix2 p q) (ix2 p 0) (fun a => by match a with | ⟨0, _⟩ => rfl | ⟨1, _⟩ => rfl)

set_option maxHeartbeats 200000 in
/-- What the second layer's tile body stores, at entry `(p, q)` of the tile: the mean of the tile's sums over the
    tile's column of degrees. -/
theorem meanPay_apply (x1 : Vec Ideal S5000x1 .f32) (x0 : Vec Ideal S5000x64 .f32) (p : Fin 5000) (q : Fin 64) :
    k5_pay1 x1 x0 (ix2 p q) = meanAt (x0 (ix2 p q)) (x1 (ix2 p 0)) := by
  unfold k5_pay1 meanAt
  rw [divf_apply, shapeCast_self, stretchCol_apply, maximumf_apply, shapeCast_self, broadcast_apply]
  rfl

set_option maxHeartbeats 200000 in
/-- What the first layer's tile body stores, at entry `(p, q)` of the tile: the rectified mean. -/
theorem lreluPay_apply (x1 : Vec Ideal S5000x1 .f32) (x0 : Vec Ideal S5000x64 .f32) (p : Fin 5000) (q : Fin 64) :
    k2_pay1 x1 x0 (ix2 p q) = lreluAt (meanAt (x0 (ix2 p q)) (x1 (ix2 p 0))) := by
  unfold k2_pay1 lreluAt meanAt
  rw [select_apply, cmpf_apply, mulf_apply, broadcast_apply, broadcast_apply,
    divf_apply, shapeCast_self, stretchCol_apply, maximumf_apply, shapeCast_self, broadcast_apply]
  rfl

/-! ## The first layer's tiled region: from row tiles to the array -/

theorem hz : (![0, 0] : Fin 2 → Nat) = fun _ => 0 := funext fun a => by fin_cases a <;> rfl

/-- Row `p` of tile `n` (of ten tiles of 5000 rows) in the array of 50000 rows. -/
def row (n : Nat) (hn : n < 10) (p : Fin 5000) : Fin 50000 := ⟨5000 * n + p.val, by have := p.isLt; omega⟩

/-- The three windows' block indices, decided over the ten grid points: each is (the point, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

set_option maxHeartbeats 200000 in
/-- The sums' block at point `t` reads rows `5000 t …` of the array. -/
theorem sumBlk2_read (A : FVec Ideal S50000x64 .f32) (t : Fin cfg2.N) (y : S5000x64.Idx) (k : S50000x64.Idx)
    (hk0 : (k 0).val = 5000 * t.val + (y 0).val) (hk1 : (k 1).val = (y 1).val) :
    ((cfg2.win 0).blk t).view.read (Elt Ideal) A y = A k := by
  obtain ⟨e0, e1, -⟩ := idx_facts2 t
  rw [View.read_apply]
  show A _ = A _
  refine congrArg A (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 64 + 1 * (y 1).val = (k 1).val; rw [e1, hk1]; omega

set_option maxHeartbeats 200000 in
/-- The degrees' block at point `t` reads rows `5000 t …` of the column. -/
theorem degBlk2_read (A : FVec Ideal S50000x1 .f32) (t : Fin cfg2.N) (y : S5000x1.Idx) (k : S50000x1.Idx)
    (hk0 : (k 0).val = 5000 * t.val + (y 0).val) (hk1 : (k 1).val = (y 1).val) :
    ((cfg2.win 1).blk t).view.read (Elt Ideal) A y = A k := by
  obtain ⟨-, -, e0, e1, -⟩ := idx_facts2 t
  rw [View.read_apply]
  show A _ = A _
  refine congrArg A (funext fun a => Fin.ext ?_)
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega

set_option maxHeartbeats 200000 in
/-- The output's block at point `t` reads rows `5000 t …` of the array. -/
theorem outBlk2_read (A : FVec Ideal S50000x64 .f32) (t : Fin cfg2.N) (y : S5000x64.Idx) (k : S50000x64.Idx)
    (hk0 : (k 0).val = 5000 * t.val + (y 0).val) (hk1 : (k 1).val = (y 1).val) :
    ((cfg2.win 2).blk t).view.read (Elt Ideal) A y = A k := by
  obtain ⟨-, -, -, -, e0, e1⟩ := idx_facts2 t
  rw [View.read_apply]
  show A _ = A _
  refine congrArg A (funext fun a => Fin.ext ?_)
  match a with
  | ⟨0, _⟩ => show win2_2.index t (0 : Fin 2) * 5000 + 1 * (y 0).val = (k 0).val; rw [e0, hk0]; omega
  | ⟨1, _⟩ => show win2_2.index t (1 : Fin 2) * 64 + 1 * (y 1).val = (k 1).val; rw [e1, hk1]; omega

/-- What a write-back moves of a whole tile is the tile. -/
theorem cut2_apply (X : Vec Ideal S5000x64 .f32) (t : Fin cfg2.N) (j : S5000x64.Idx) :
    (cfg2.win 2).cut (grid2.coords t) X j = X j := rfl

set_option maxHeartbeats 200000 in
/-- At a point `t`, with the two input tiles reading rows `5000 t …` of the sums `s` and of the degrees `d`, the
    stored tile, written back, is the same rows of the rectified mean of `s` and `d`. -/
theorem lreluTile (s : FVec Ideal S50000x64 .f32) (d : FVec Ideal S50000x1 .f32) (t : Fin cfg2.N) (ht : t.val < 10)
    (x0 : Vec Ideal S5000x64 .f32) (x1 : Vec Ideal S5000x1 .f32)
    (h0 : ∀ (p : Fin 5000) (q : Fin 64), x0 (ix2 p q) = s (ix2 (row t.val ht p) q))
    (h1 : ∀ p : Fin 5000, x1 (ix2 p 0) = d (ix2 (row t.val ht p) 0))
    (j : S5000x64.Idx) :
    (cfg2.win 2).cut (grid2.coords t) (k2_pay1 x1 x0) j
      = ((cfg2.win 2).blk t).view.read (Elt Ideal) (Cert.Spec.lrelu (Cert.Spec.divCol s (Cert.Spec.maxCol d))) j := by
  obtain ⟨p, q, rfl⟩ : ∃ (p : Fin 5000) (q : Fin 64), j = ix2 p q := ⟨j 0, j 1, eq_ix2 j⟩
  rw [cut2_apply, lreluPay_apply, h0, h1,
    outBlk2_read _ t (ix2 p q) (ix2 (row t.val ht p) q) rfl rfl, spec_lrelu_apply]

set_option maxHeartbeats 200000 in
/-- The sums' tile at point `t`, entry by entry. -/
theorem sumTile2_apply (V : (c : Dev nD) → (b : Ref sig .tc) → Buf (Elt Ideal) ((c : Thread nD τ).loc b)) (c : Dev nD)
    (t : Fin cfg2.N) (ht : t.val < 10) (p : Fin 5000) (q : Fin 64) :
    (iblk2 V c 0 t : Vec Ideal S5000x64 .f32) (ix2 p q) = (V c main_v17 : FVec Ideal S50000x64 .f32) (ix2 (row t.val ht p) q) := by
  unfold iblk2
  exact sumBlk2_read (V c main_v17) t (ix2 p q) (ix2 (row t.val ht p) q) rfl rfl

set_option maxHeartbeats 200000 in
/-- The degrees' tile at point `t`, entry by entry. -/
theorem degTile2_apply (V : (c : Dev nD) → (b : Ref sig .tc) → Buf (Elt Ideal) ((c : Thread nD τ).loc b)) (c : Dev nD)
    (t : Fin cfg2.N) (ht : t.val < 10) (p : Fin 5000) :
    (iblk2 V c 1 t : Vec Ideal S5000x1 .f32) (ix2 p 0) = (V c main_v18 : FVec Ideal S50000x1 .f32) (ix2 (row t.val ht p) 0) := by
  unfold iblk2
  exact degBlk2_read (V c main_v18) t (ix2 p 0) (ix2 (row t.val ht p) 0) rfl rfl

set_option maxHeartbeats 400000 in
/-- What point `t` writes back is block `t` of the rectified mean of the entry arrays. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.lrelu (Cert.Spec.divCol (V c main_v17) (Cert.Spec.maxCol (V c main_v18)))) := by
  have ht : t.val < 10 := by have hN : cfg2.N = 10 := N_2; have := t.isLt; omega
  show (cfg2.win 2).cut (grid2.coords t) ((dat2 V c).after 2 t) = _
  rw [after2_2]
  unfold out2_2
  rw [View.canon_unit_zero hz]
  simp only [View.ld_unit_zero (S := S5000x64) hz, View.ld_unit_zero (S := S5000x1) hz]
  exact funext fun j => lreluTile (V c main_v17) (V c main_v18) t ht (iblk2 V c 0 t) (iblk2 V c 1 t)
    (fun p q => sumTile2_apply V c t ht p q) (fun p => degTile2_apply V c t ht p) j

/-- A row of the array is in point `t`'s output block iff each coordinate is in the block's range on its axis. -/
theorem mem_outBlk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v19).slice (win2_2.rect t)).set ↔ _
  rw [View.set_slice_whole, Rect.mem_set_unit]
  exact Iff.rfl

set_option maxHeartbeats 200000 in
/-- The ten output blocks cover the array: row `r` is in the block of point `r / 5000`. -/
theorem cover2 (i : S50000x64.Idx) : ∃ t : Fin cfg2.N, (cfg2.win 2).flush t = true ∧ i ∈ ((cfg2.win 2).blk t).view.set := by
  have hN : cfg2.N = 10 := N_2
  have hi0 : (i 0).val < 50000 := idx2_lt0 i
  have hi1 : (i 1).val < 64 := idx2_lt1 i
  obtain ⟨t, ht⟩ : ∃ t : Fin cfg2.N, t.val = (i 0).val / 5000 := ⟨⟨(i 0).val / 5000, by rw [hN]; omega⟩, rfl⟩
  obtain ⟨-, -, -, -, e0, e1⟩ := idx_facts2 t
  refine ⟨t, flush2_2 t, ?_⟩
  rw [mem_outBlk2]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 64 ≤ (i 1).val ∧ (i 1).val < win2_2.index t (1 : Fin 2) * 64 + 64
    rw [e1]; omega

set_option maxHeartbeats 400000 in
/-- The first layer's tiled region leaves its output array at the rectified mean of the sums and the degrees it found. -/
theorem arr2 (V : (c : Dev nD) → (b : Ref sig .tc) → Buf (Elt Ideal) ((c : Thread nD τ).loc b)) (c : Dev nD) :
    (dat2 (F := Ideal) V c).arrAt 2 cfg2.N = Cert.Spec.lrelu (Cert.Spec.divCol (V c main_v17) (Cert.Spec.maxCol (V c main_v18))) :=
  (dat2 (F := Ideal) V c).arrAt_eq_of_cover 2 _ (fun t _ => flushed2_eq V c t) cover2

/-! ## The second layer's tiled region: from row tiles to the array -/

/-- The three windows' block indices, decided over the ten grid points: each is (the point, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

set_option maxHeartbeats 200000 in
/-- The sums' block at point `t` reads rows `5000 t …` of the array. -/
theorem sumBlk5_read (A : FVec Ideal S50000x64 .f32) (t : Fin cfg5.N) (y : S5000x64.Idx) (k : S50000x64.Idx)
    (hk0 : (k 0).val = 5000 * t.val + (y 0).val) (hk1 : (k 1).val = (y 1).val) :
    ((cfg5.win 0).blk t).view.read (Elt Ideal) A y = A k := by
  obtain ⟨e0, e1, -⟩ := idx_facts5 t
  rw [View.read_apply]
  show A _ = A _
  refine congrArg A (funext fun a => Fin.ext ?_)
  match a with
  | ⟨0, _⟩ => show win5_0.index t (0 : Fin 2) * 5000 + 1 * (y 0).val = (k 0).val; rw [e0, hk0]; omega
  | ⟨1, _⟩ => show win5_0.index t (1 : Fin 2) * 64 + 1 * (y 1).val = (k 1).val; rw [e1, hk1]; omega

set_option maxHeartbeats 200000 in
/-- The degrees' block at point `t` reads rows `5000 t …` of the column. -/
theorem degBlk5_read (A : FVec Ideal S50000x1 .f32) (t : Fin cfg5.N) (y : S5000x1.Idx) (k : S50000x1.Idx)
    (hk0 : (k 0).val = 5000 * t.val + (y 0).val) (hk1 : (k 1).val = (y 1).val) :
    ((cfg5.win 1).blk t).view.read (Elt Ideal) A y = A k := by
  obtain ⟨-, -, e0, e1, -⟩ := idx_facts5 t
  rw [View.read_apply]
  show A _ = A _
  refine congrArg A (funext fun a => Fin.ext ?_)
  match a with
  | ⟨0, _⟩ => show win5_1.index t (0 : Fin 2) * 5000 + 1 * (y 0).val = (k 0).val; rw [e0, hk0]; omega
  | ⟨1, _⟩ => show win5_1.index t (1 : Fin 2) * 1 + 1 * (y 1).val = (k 1).val; rw [e1, hk1]; omega

set_option maxHeartbeats 200000 in
/-- The output's block at point `t` reads rows `5000 t …` of the array. -/
theorem outBlk5_read (A : FVec Ideal S50000x64 .f32) (t : Fin cfg5.N) (y : S5000x64.Idx) (k : S50000x64.Idx)
    (hk0 : (k 0).val = 5000 * t.val + (y 0).val) (hk1 : (k 1).val = (y 1).val) :
    ((cfg5.win 2).blk t).view.read (Elt Ideal) A y = A k := by
  obtain ⟨-, -, -, -, e0, e1⟩ := idx_facts5 t
  rw [View.read_apply]
  show A _ = A _
  refine congrArg A (funext fun a => Fin.ext ?_)
  match a with
  | ⟨0, _⟩ => show win5_2.index t (0 : Fin 2) * 5000 + 1 * (y 0).val = (k 0).val; rw [e0, hk0]; omega
  | ⟨1, _⟩ => show win5_2.index t (1 : Fin 2) * 64 + 1 * (y 1).val = (k 1).val; rw [e1, hk1]; omega

/-- What a write-back moves of a whole tile is the tile. -/
theorem cut5_apply (X : Vec Ideal S5000x64 .f32) (t : Fin cfg5.N) (j : S5000x64.Idx) :
    (cfg5.win 2).cut (grid5.coords t) X j = X j := rfl

set_option maxHeartbeats 200000 in
/-- At a point `t`, with the two input tiles reading rows `5000 t …` of the sums `s` and of the degrees `d`, the
    stored tile, written back, is the same rows of the mean of `s` and `d`. -/
theorem meanTile (s : FVec Ideal S50000x64 .f32) (d : FVec Ideal S50000x1 .f32) (t : Fin cfg5.N) (ht : t.val < 10)
    (x0 : Vec Ideal S5000x64 .f32) (x1 : Vec Ideal S5000x1 .f32)
    (h0 : ∀ (p : Fin 5000) (q : Fin 64), x0 (ix2 p q) = s (ix2 (row t.val ht p) q))
    (h1 : ∀ p : Fin 5000, x1 (ix2 p 0) = d (ix2 (row t.val ht p) 0))
    (j : S5000x64.Idx) :
    (cfg5.win 2).cut (grid5.coords t) (k5_pay1 x1 x0) j
      = ((cfg5.win 2).blk t).view.read (Elt Ideal) (Cert.Spec.divCol s (Cert.Spec.maxCol d)) j := by
  obtain ⟨p, q, rfl⟩ : ∃ (p : Fin 5000) (q : Fin 64), j = ix2 p q := ⟨j 0, j 1, eq_ix2 j⟩
  rw [cut5_apply, meanPay_apply, h0, h1,
    outBlk5_read _ t (ix2 p q) (ix2 (row t.val ht p) q) rfl rfl, spec_mean_apply]

set_option maxHeartbeats 200000 in
/-- The sums' tile at point `t`, entry by entry. -/
theorem sumTile5_apply (V : (c : Dev nD) → (b : Ref sig .tc) → Buf (Elt Ideal) ((c : Thread nD τ).loc b)) (c : Dev nD)
    (t : Fin cfg5.N) (ht : t.val < 10) (p : Fin 5000) (q : Fin 64) :
    (iblk5 V c 0 t : Vec Ideal S5000x64 .f32) (ix2 p q) = (V c main_v33 : FVec Ideal S50000x64 .f32) (ix2 (row t.val ht p) q) := by
  unfold iblk5
  exact sumBlk5_read (V c main_v33) t (ix2 p q) (ix2 (row t.val ht p) q) rfl rfl

set_option maxHeartbeats 200000 in
/-- The degrees' tile at point `t`, entry by entry. -/
theorem degTile5_apply (V : (c : Dev nD) → (b : Ref sig .tc) → Buf (Elt Ideal) ((c : Thread nD τ).loc b)) (c : Dev nD)
    (t : Fin cfg5.N) (ht : t.val < 10) (p : Fin 5000) :
    (iblk5 V c 1 t : Vec Ideal S5000x1 .f32) (ix2 p 0) = (V c main_v34 : FVec Ideal S50000x1 .f32) (ix2 (row t.val ht p) 0) := by
  unfold iblk5
  exact degBlk5_read (V c main_v34) t (ix2 p 0) (ix2 (row t.val ht p) 0) rfl rfl

set_option maxHeartbeats 400000 in
/-- What point `t` writes back is block `t` of the mean of the entry arrays. -/
theorem flushed5_eq (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (Cert.Spec.divCol (V c main_v33) (Cert.Spec.maxCol (V c main_v34))) := by
  have ht : t.val < 10 := by have hN : cfg5.N = 10 := N_5; have := t.isLt; omega
  show (cfg5.win 2).cut (grid5.coords t) ((dat5 V c).after 2 t) = _
  rw [after5_2]
  unfold out5_2
  rw [View.canon_unit_zero hz]
  simp only [View.ld_unit_zero (S := S5000x64) hz, View.ld_unit_zero (S := S5000x1) hz]
  exact funext fun j => meanTile (V c main_v33) (V c main_v34) t ht (iblk5 V c 0 t) (iblk5 V c 1 t)
    (fun p q => sumTile5_apply V c t ht p q) (fun p => degTile5_apply V c t ht p) j

/-- A row of the array is in point `t`'s output block iff each coordinate is in the block's range on its axis. -/
theorem mem_outBlk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v35).slice (win5_2.rect t)).set ↔ _
  rw [View.set_slice_whole, Rect.mem_set_unit]
  exact Iff.rfl

set_option maxHeartbeats 200000 in
/-- The ten output blocks cover the array: row `r` is in the block of point `r / 5000`. -/
theorem cover5 (i : S50000x64.Idx) : ∃ t : Fin cfg5.N, (cfg5.win 2).flush t = true ∧ i ∈ ((cfg5.win 2).blk t).view.set := by
  have hN : cfg5.N = 10 := N_5
  have hi0 : (i 0).val < 50000 := idx2_lt0 i
  have hi1 : (i 1).val < 64 := idx2_lt1 i
  obtain ⟨t, ht⟩ : ∃ t : Fin cfg5.N, t.val = (i 0).val / 5000 := ⟨⟨(i 0).val / 5000, by rw [hN]; omega⟩, rfl⟩
  obtain ⟨-, -, -, -, e0, e1⟩ := idx_facts5 t
  refine ⟨t, flush5_2 t, ?_⟩
  rw [mem_outBlk5]
  intro a
  match a with
  | ⟨0, _⟩ =>
    show win5_2.index t (0 : Fin 2) * 5000 ≤ (i 0).val ∧ (i 0).val < win5_2.index t (0 : Fin 2) * 5000 + 5000
    rw [e0, ht]; omega
  | ⟨1, _⟩ =>
    show win5_2.index t (1 : Fin 2) * 64 ≤ (i 1).val ∧ (i 1).val < win5_2.index t (1 : Fin 2) * 64 + 64
    rw [e1]; omega

set_option maxHeartbeats 400000 in
/-- The second layer's tiled region leaves its output array at the mean of the sums and the degrees it found. -/
theorem arr5 (V : (c : Dev nD) → (b : Ref sig .tc) → Buf (Elt Ideal) ((c : Thread nD τ).loc b)) (c : Dev nD) :
    (dat5 (F := Ideal) V c).arrAt 2 cfg5.N = Cert.Spec.divCol (V c main_v33) (Cert.Spec.maxCol (V c main_v34)) :=
  (dat5 (F := Ideal) V c).arrAt_eq_of_cover 2 _ (fun t _ => flushed5_eq V c t) cover5

end Cert.KernelIdeal.RegionNorm
end
-- ==== Proof.KRun.lean ====
/-
  The idealized kernel's run with its result named.

  The kernel's @main is six tiled regions among six stretches of host operations. At the end of the run every
  unscoped buffer of a core holds the last boundary's contents `W12 m ρ c`; here that is read at the result
  buffer `main_v35` as well as at the eight argument buffers, so that the value of the result can be computed
  from the boundaries (Proof/KWalk.lean) while the arguments are still known to end as launched.
-/
import proofs.«112303_j23192823399233_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- From any memory with zero counters every weakly fair execution of @main on the TensorCores terminates, nothing
    faulting; in every final state the result buffer holds the last boundary's contents at `main_v35` and the eight
    argument arrays are as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v35) = W12 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v35 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KRun

end
-- ==== Proof.KWalk.lean ====
import proofs.«112303_j23192823399233_2_alg».proof.Proof.KRun
import proofs.«112303_j23192823399233_2_alg».proof.Proof.Spec
import proofs.«112303_j23192823399233_2_alg».proof.Proof.Gen.ReferenceIdeal

set_option maxRecDepth 16384

noncomputable section

namespace Cert.KernelIdeal.KWalk

open Idealize.ShloMosaic Idealize.ShloMosaic.TcCoe
open Idealize.SL.Sem
open Idealize.ShloMosaic.Pipeline (Dat)
open Cert.KernelIdeal.Gen

/-! ## What each stretch of host operations leaves, over any contents `W` at its entry

Between the tiled regions the program gathers, scatters and re-lays arrays on the host. Each stretch is read here
once, over arbitrary entry contents: the arrays it computes as the specification's whole-array functions of the
arrays it reads, and the arrays it does not write as they were. -/

section Host
variable (W : Valuation τ sig (Elt Ideal))

/-- Before region 0: the in-degree of every node, ones added up by destination from zeros. -/
theorem ops0_v3 : StableHlo.after hostOps0 W (Proc.devRef .tc main_v3) = Cert.Spec.deg (W (Proc.devRef .tc main_arg7)) := by
  simp only [hostOps0]; after_results_simp; rfl
/-- Before region 0: the first bias as a row. -/
theorem ops0_v4 : StableHlo.after hostOps0 W (Proc.devRef .tc main_v4)
    = shapeCast S1x64 (W (Proc.devRef .tc main_arg3) : FVec Ideal S64 .f32) shapeCasts_S64_S1x64 := by
  simp only [hostOps0]; after_results_simp; rfl
theorem keep0_arg0 : StableHlo.after hostOps0 W (Proc.devRef .tc main_arg0) = W (Proc.devRef .tc main_arg0) := by
  simp only [hostOps0]; after_results_simp
theorem keep0_arg1 : StableHlo.after hostOps0 W (Proc.devRef .tc main_arg1) = W (Proc.devRef .tc main_arg1) := by
  simp only [hostOps0]; after_results_simp
theorem keep0_arg2 : StableHlo.after hostOps0 W (Proc.devRef .tc main_arg2) = W (Proc.devRef .tc main_arg2) := by
  simp only [hostOps0]; after_results_simp
theorem keep0_arg4 : StableHlo.after hostOps0 W (Proc.devRef .tc main_arg4) = W (Proc.devRef .tc main_arg4) := by
  simp only [hostOps0]; after_results_simp
theorem keep0_arg5 : StableHlo.after hostOps0 W (Proc.devRef .tc main_arg5) = W (Proc.devRef .tc main_arg5) := by
  simp only [hostOps0]; after_results_simp
theorem keep0_arg6 : StableHlo.after hostOps0 W (Proc.devRef .tc main_arg6) = W (Proc.devRef .tc main_arg6) := by
  simp only [hostOps0]; after_results_simp
theorem keep0_arg7 : StableHlo.after hostOps0 W (Proc.devRef .tc main_arg7) = W (Proc.devRef .tc main_arg7) := by
  simp only [hostOps0]; after_results_simp

/-- Before region 1: every edge's source row of the projected table, a negative source wrapped around. -/
theorem ops1_v12 : StableHlo.after hostOps1 W (Proc.devRef .tc main_v12)
    = Cert.Spec.gath (W (Proc.devRef .tc main_v5)) (W (Proc.devRef .tc main_arg6)) := by
  simp only [hostOps1]; after_results_simp; rfl
/-- Before region 1: the edge weights as a column. -/
theorem ops1_v13 : StableHlo.after hostOps1 W (Proc.devRef .tc main_v13)
    = shapeCast S1200000x1 (W (Proc.devRef .tc main_arg1) : FVec Ideal S1200000 .f32) shapeCasts_S1200000_S1200000x1 := by
  simp only [hostOps1]; after_results_simp; rfl
theorem keep1_arg1 : StableHlo.after hostOps1 W (Proc.devRef .tc main_arg1) = W (Proc.devRef .tc main_arg1) := by
  simp only [hostOps1]; after_results_simp
theorem keep1_arg4 : StableHlo.after hostOps1 W (Proc.devRef .tc main_arg4) = W (Proc.devRef .tc main_arg4) := by
  simp only [hostOps1]; after_results_simp
theorem keep1_arg5 : StableHlo.after hostOps1 W (Proc.devRef .tc main_arg5) = W (Proc.devRef .tc main_arg5) := by
  simp only [hostOps1]; after_results_simp
theorem keep1_arg6 : StableHlo.after hostOps1 W (Proc.devRef .tc main_arg6) = W (Proc.devRef .tc main_arg6) := by
  simp only [hostOps1]; after_results_simp
theorem keep1_arg7 : StableHlo.after hostOps1 W (Proc.devRef .tc main_arg7) = W (Proc.devRef .tc main_arg7) := by
  simp only [hostOps1]; after_results_simp
theorem keep1_v3 : StableHlo.after hostOps1 W (Proc.devRef .tc main_v3) = W (Proc.devRef .tc main_v3) := by
  simp only [hostOps1]; after_results_simp

/-- Before region 2: the scaled rows added up by destination from zeros. -/
theorem ops2_v17 : StableHlo.after hostOps2 W (Proc.devRef .tc main_v17)
    = Cert.Spec.scat (W (Proc.devRef .tc main_arg7)) (W (Proc.devRef .tc main_v14)) := by
  simp only [hostOps2]; after_results_simp; rfl
/-- Before region 2: the in-degrees as a column. -/
theorem ops2_v18 : StableHlo.after hostOps2 W (Proc.devRef .tc main_v18)
    = shapeCast S50000x1 (W (Proc.devRef .tc main_v3) : FVec Ideal S50000 .f32) shapeCasts_S50000_S50000x1 := by
  simp only [hostOps2]; after_results_simp; rfl
theorem keep2_arg1 : StableHlo.after hostOps2 W (Proc.devRef .tc main_arg1) = W (Proc.devRef .tc main_arg1) := by
  simp only [hostOps2]; after_results_simp
theorem keep2_arg4 : StableHlo.after hostOps2 W (Proc.devRef .tc main_arg4) = W (Proc.devRef .tc main_arg4) := by
  simp only [hostOps2]; after_results_simp
theorem keep2_arg5 : StableHlo.after hostOps2 W (Proc.devRef .tc main_arg5) = W (Proc.devRef .tc main_arg5) := by
  simp only [hostOps2]; after_results_simp
theorem keep2_arg6 : StableHlo.after hostOps2 W (Proc.devRef .tc main_arg6) = W (Proc.devRef .tc main_arg6) := by
  simp only [hostOps2]; after_results_simp
theorem keep2_arg7 : StableHlo.after hostOps2 W (Proc.devRef .tc main_arg7) = W (Proc.devRef .tc main_arg7) := by
  simp only [hostOps2]; after_results_simp
theorem keep2_v3 : StableHlo.after hostOps2 W (Proc.devRef .tc main_v3) = W (Proc.devRef .tc main_v3) := by
  simp only [hostOps2]; after_results_simp

/-- Before region 3: the second bias as a row. -/
theorem ops3_v20 : StableHlo.after hostOps3 W (Proc.devRef .tc main_v20)
    = shapeCast S1x64 (W (Proc.devRef .tc main_arg5) : FVec Ideal S64 .f32) shapeCasts_S64_S1x64 := by
  simp only [hostOps3]; after_results_simp; rfl
theorem keep3_arg1 : StableHlo.after hostOps3 W (Proc.devRef .tc main_arg1) = W (Proc.devRef .tc main_arg1) := by
  simp only [hostOps3]; after_results_simp
theorem keep3_arg4 : StableHlo.after hostOps3 W (Proc.devRef .tc main_arg4) = W (Proc.devRef .tc main_arg4) := by
  simp only [hostOps3]; after_results_simp
theorem keep3_arg6 : StableHlo.after hostOps3 W (Proc.devRef .tc main_arg6) = W (Proc.devRef .tc main_arg6) := by
  simp only [hostOps3]; after_results_simp
theorem keep3_arg7 : StableHlo.after hostOps3 W (Proc.devRef .tc main_arg7) = W (Proc.devRef .tc main_arg7) := by
  simp only [hostOps3]; after_results_simp
theorem keep3_v3 : StableHlo.after hostOps3 W (Proc.devRef .tc main_v3) = W (Proc.devRef .tc main_v3) := by
  simp only [hostOps3]; after_results_simp
theorem keep3_v19 : StableHlo.after hostOps3 W (Proc.devRef .tc main_v19) = W (Proc.devRef .tc main_v19) := by
  simp only [hostOps3]; after_results_simp

/-- Before region 4: every edge's source row of the second projected table. -/
theorem ops4_v28 : StableHlo.after hostOps4 W (Proc.devRef .tc main_v28)
    = Cert.Spec.gath (W (Proc.devRef .tc main_v21)) (W (Proc.devRef .tc main_arg6)) := by
  simp only [hostOps4]; after_results_simp; rfl
/-- Before region 4: the edge weights as a column, again. -/
theorem ops4_v29 : StableHlo.after hostOps4 W (Proc.devRef .tc main_v29)
    = shapeCast S1200000x1 (W (Proc.devRef .tc main_arg1) : FVec Ideal S1200000 .f32) shapeCasts_S1200000_S1200000x1 := by
  simp only [hostOps4]; after_results_simp; rfl
theorem keep4_arg7 : StableHlo.after hostOps4 W (Proc.devRef .tc main_arg7) = W (Proc.devRef .tc main_arg7) := by
  simp only [hostOps4]; after_results_simp
theorem keep4_v3 : StableHlo.after hostOps4 W (Proc.devRef .tc main_v3) = W (Proc.devRef .tc main_v3) := by
  simp only [hostOps4]; after_results_simp

/-- Before region 5: the second layer's scaled rows added up by destination from zeros. -/
theorem ops5_v33 : StableHlo.after hostOps5 W (Proc.devRef .tc main_v33)
    = Cert.Spec.scat (W (Proc.devRef .tc main_arg7)) (W (Proc.devRef .tc main_v30)) := by
  simp only [hostOps5]; after_results_simp; rfl
/-- Before region 5: the in-degrees as a column, again. -/
theorem ops5_v34 : StableHlo.after hostOps5 W (Proc.devRef .tc main_v34)
    = shapeCast S50000x1 (W (Proc.devRef .tc main_v3) : FVec Ideal S50000 .f32) shapeCasts_S50000_S50000x1 := by
  simp only [hostOps5]; after_results_simp; rfl

end Host

/-! ## The boundaries' contents, from the launch forward

`Wk m ρ c` is what core `c`'s buffers hold at the k-th boundary of the run from the launch memory `m`. An argument
array is written by nothing, so at every boundary it is the launch array; the in-degrees are computed once, before
region 0, and kept. A region's output array is the region's function of its input arrays at entry, and a host stretch's
arrays are its functions of what it reads: composed, the result is the two-layer network of the launch arrays. -/

section Walk
variable (m : (ℓ : Loc nD τ sig) → Buf (Elt Ideal) ℓ) (ρ : Dev nD → PrngReg) (c : Dev nD)

set_option quotPrecheck false in
local notation "⟪x⟫" => m ((c.tc : Thread nD τ).loc main_arg0)
set_option quotPrecheck false in
local notation "⟪ew⟫" => shapeCast S1200000x1 (m ((c.tc : Thread nD τ).loc main_arg1) : FVec Ideal S1200000 .f32) shapeCasts_S1200000_S1200000x1
set_option quotPrecheck false in
local notation "⟪W1⟫" => m ((c.tc : Thread nD τ).loc main_arg2)
set_option quotPrecheck false in
local notation "⟪b1⟫" => shapeCast S1x64 (m ((c.tc : Thread nD τ).loc main_arg3) : FVec Ideal S64 .f32) shapeCasts_S64_S1x64
set_option quotPrecheck false in
local notation "⟪W2⟫" => m ((c.tc : Thread nD τ).loc main_arg4)
set_option quotPrecheck false in
local notation "⟪b2⟫" => shapeCast S1x64 (m ((c.tc : Thread nD τ).loc main_arg5) : FVec Ideal S64 .f32) shapeCasts_S64_S1x64
set_option quotPrecheck false in
local notation "⟪src⟫" => m ((c.tc : Thread nD τ).loc main_arg6)
set_option quotPrecheck false in
local notation "⟪dst⟫" => m ((c.tc : Thread nD τ).loc main_arg7)
set_option quotPrecheck false in
local notation "⟪deg⟫" => shapeCast S50000x1 (Cert.Spec.deg (m ((c.tc : Thread nD τ).loc main_arg7))) shapeCasts_S50000_S50000x1

/-! ### The arrays nothing writes -/

theorem W1_arg0 : W1 m ρ c (Proc.devRef .tc main_arg0) = ⟪x⟫ := keep0_arg0 (W0 m ρ c)
theorem W1_arg2 : W1 m ρ c (Proc.devRef .tc main_arg2) = ⟪W1⟫ := keep0_arg2 (W0 m ρ c)
theorem W1_v4 : W1 m ρ c (Proc.devRef .tc main_v4) = ⟪b1⟫ := ops0_v4 (W0 m ρ c)
theorem W1_arg7 : W1 m ρ c (Proc.devRef .tc main_arg7) = ⟪dst⟫ := keep0_arg7 (W0 m ρ c)
theorem W2_arg7 : W2 m ρ c (Proc.devRef .tc main_arg7) = ⟪dst⟫ := (W2_of_ne m ρ c main_arg7 (by decide)).trans (W1_arg7 m ρ c)
theorem W3_arg7 : W3 m ρ c (Proc.devRef .tc main_arg7) = ⟪dst⟫ := (keep1_arg7 (W2 m ρ c)).trans (W2_arg7 m ρ c)
theorem W4_arg7 : W4 m ρ c (Proc.devRef .tc main_arg7) = ⟪dst⟫ := (W4_of_ne m ρ c main_arg7 (by decide)).trans (W3_arg7 m ρ c)
theorem W5_arg7 : W5 m ρ c (Proc.devRef .tc main_arg7) = ⟪dst⟫ := (keep2_arg7 (W4 m ρ c)).trans (W4_arg7 m ρ c)
theorem W6_arg7 : W6 m ρ c (Proc.devRef .tc main_arg7) = ⟪dst⟫ := (W6_of_ne m ρ c main_arg7 (by decide)).trans (W5_arg7 m ρ c)
theorem W7_arg7 : W7 m ρ c (Proc.devRef .tc main_arg7) = ⟪dst⟫ := (keep3_arg7 (W6 m ρ c)).trans (W6_arg7 m ρ c)
theorem W8_arg7 : W8 m ρ c (Proc.devRef .tc main_arg7) = ⟪dst⟫ := (W8_of_ne m ρ c main_arg7 (by decide)).trans (W7_arg7 m ρ c)
theorem W9_arg7 : W9 m ρ c (Proc.devRef .tc main_arg7) = ⟪dst⟫ := (keep4_arg7 (W8 m ρ c)).trans (W8_arg7 m ρ c)
theorem W10_arg7 : W10 m ρ c (Proc.devRef .tc main_arg7) = ⟪dst⟫ := (W10_of_ne m ρ c main_arg7 (by decide)).trans (W9_arg7 m ρ c)
theorem W1_v3 : W1 m ρ c (Proc.devRef .tc main_v3) = Cert.Spec.deg ⟪dst⟫ := ops0_v3 (W0 m ρ c)
theorem W2_v3 : W2 m ρ c (Proc.devRef .tc main_v3) = Cert.Spec.deg ⟪dst⟫ := (W2_of_ne m ρ c main_v3 (by decide)).trans (W1_v3 m ρ c)
theorem W3_v3 : W3 m ρ c (Proc.devRef .tc main_v3) = Cert.Spec.deg ⟪dst⟫ := (keep1_v3 (W2 m ρ c)).trans (W2_v3 m ρ c)
theorem W4_v3 : W4 m ρ c (Proc.devRef .tc main_v3) = Cert.Spec.deg ⟪dst⟫ := (W4_of_ne m ρ c main_v3 (by decide)).trans (W3_v3 m ρ c)
theorem W5_v3 : W5 m ρ c (Proc.devRef .tc main_v3) = Cert.Spec.deg ⟪dst⟫ := (keep2_v3 (W4 m ρ c)).trans (W4_v3 m ρ c)
theorem W6_v3 : W6 m ρ c (Proc.devRef .tc main_v3) = Cert.Spec.deg ⟪dst⟫ := (W6_of_ne m ρ c main_v3 (by decide)).trans (W5_v3 m ρ c)
theorem W7_v3 : W7 m ρ c (Proc.devRef .tc main_v3) = Cert.Spec.deg ⟪dst⟫ := (keep3_v3 (W6 m ρ c)).trans (W6_v3 m ρ c)
theorem W8_v3 : W8 m ρ c (Proc.devRef .tc main_v3) = Cert.Spec.deg ⟪dst⟫ := (W8_of_ne m ρ c main_v3 (by decide)).trans (W7_v3 m ρ c)
theorem W9_v3 : W9 m ρ c (Proc.devRef .tc main_v3) = Cert.Spec.deg ⟪dst⟫ := (keep4_v3 (W8 m ρ c)).trans (W8_v3 m ρ c)
theorem W10_v3 : W10 m ρ c (Proc.devRef .tc main_v3) = Cert.Spec.deg ⟪dst⟫ := (W10_of_ne m ρ c main_v3 (by decide)).trans (W9_v3 m ρ c)
theorem W1_arg6 : W1 m ρ c (Proc.devRef .tc main_arg6) = ⟪src⟫ := keep0_arg6 (W0 m ρ c)
theorem W2_arg6 : W2 m ρ c (Proc.devRef .tc main_arg6) = ⟪src⟫ := (W2_of_ne m ρ c main_arg6 (by decide)).trans (W1_arg6 m ρ c)
theorem W3_arg6 : W3 m ρ c (Proc.devRef .tc main_arg6) = ⟪src⟫ := (keep1_arg6 (W2 m ρ c)).trans (W2_arg6 m ρ c)
theorem W4_arg6 : W4 m ρ c (Proc.devRef .tc main_arg6) = ⟪src⟫ := (W4_of_ne m ρ c main_arg6 (by decide)).trans (W3_arg6 m ρ c)
theorem W5_arg6 : W5 m ρ c (Proc.devRef .tc main_arg6) = ⟪src⟫ := (keep2_arg6 (W4 m ρ c)).trans (W4_arg6 m ρ c)
theorem W6_arg6 : W6 m ρ c (Proc.devRef .tc main_arg6) = ⟪src⟫ := (W6_of_ne m ρ c main_arg6 (by decide)).trans (W5_arg6 m ρ c)
theorem W7_arg6 : W7 m ρ c (Proc.devRef .tc main_arg6) = ⟪src⟫ := (keep3_arg6 (W6 m ρ c)).trans (W6_arg6 m ρ c)
theorem W8_arg6 : W8 m ρ c (Proc.devRef .tc main_arg6) = ⟪src⟫ := (W8_of_ne m ρ c main_arg6 (by decide)).trans (W7_arg6 m ρ c)
theorem W1_arg1 : W1 m ρ c (Proc.devRef .tc main_arg1) = m ((c.tc : Thread nD τ).loc main_arg1) := keep0_arg1 (W0 m ρ c)
theorem W2_arg1 : W2 m ρ c (Proc.devRef .tc main_arg1) = m ((c.tc : Thread nD τ).loc main_arg1) := (W2_of_ne m ρ c main_arg1 (by decide)).trans (W1_arg1 m ρ c)
theorem W3_arg1 : W3 m ρ c (Proc.devRef .tc main_arg1) = m ((c.tc : Thread nD τ).loc main_arg1) := (keep1_arg1 (W2 m ρ c)).trans (W2_arg1 m ρ c)
theorem W4_arg1 : W4 m ρ c (Proc.devRef .tc main_arg1) = m ((c.tc : Thread nD τ).loc main_arg1) := (W4_of_ne m ρ c main_arg1 (by decide)).trans (W3_arg1 m ρ c)
theorem W5_arg1 : W5 m ρ c (Proc.devRef .tc main_arg1) = m ((c.tc : Thread nD τ).loc main_arg1) := (keep2_arg1 (W4 m ρ c)).trans (W4_arg1 m ρ c)
theorem W6_arg1 : W6 m ρ c (Proc.devRef .tc main_arg1) = m ((c.tc : Thread nD τ).loc main_arg1) := (W6_of_ne m ρ c main_arg1 (by decide)).trans (W5_arg1 m ρ c)
theorem W7_arg1 : W7 m ρ c (Proc.devRef .tc main_arg1) = m ((c.tc : Thread nD τ).loc main_arg1) := (keep3_arg1 (W6 m ρ c)).trans (W6_arg1 m ρ c)
theorem W8_arg1 : W8 m ρ c (Proc.devRef .tc main_arg1) = m ((c.tc : Thread nD τ).loc main_arg1) := (W8_of_ne m ρ c main_arg1 (by decide)).trans (W7_arg1 m ρ c)
theorem W1_arg5 : W1 m ρ c (Proc.devRef .tc main_arg5) = m ((c.tc : Thread nD τ).loc main_arg5) := keep0_arg5 (W0 m ρ c)
theorem W2_arg5 : W2 m ρ c (Proc.devRef .tc main_arg5) = m ((c.tc : Thread nD τ).loc main_arg5) := (W2_of_ne m ρ c main_arg5 (by decide)).trans (W1_arg5 m ρ c)
theorem W3_arg5 : W3 m ρ c (Proc.devRef .tc main_arg5) = m ((c.tc : Thread nD τ).loc main_arg5) := (keep1_arg5 (W2 m ρ c)).trans (W2_arg5 m ρ c)
theorem W4_arg5 : W4 m ρ c (Proc.devRef .tc main_arg5) = m ((c.tc : Thread nD τ).loc main_arg5) := (W4_of_ne m ρ c main_arg5 (by decide)).trans (W3_arg5 m ρ c)
theorem W5_arg5 : W5 m ρ c (Proc.devRef .tc main_arg5) = m ((c.tc : Thread nD τ).loc main_arg5) := (keep2_arg5 (W4 m ρ c)).trans (W4_arg5 m ρ c)
theorem W6_arg5 : W6 m ρ c (Proc.devRef .tc main_arg5) = m ((c.tc : Thread nD τ).loc main_arg5) := (W6_of_ne m ρ c main_arg5 (by decide)).trans (W5_arg5 m ρ c)
theorem W1_arg4 : W1 m ρ c (Proc.devRef .tc main_arg4) = ⟪W2⟫ := keep0_arg4 (W0 m ρ c)
theorem W2_arg4 : W2 m ρ c (Proc.devRef .tc main_arg4) = ⟪W2⟫ := (W2_of_ne m ρ c main_arg4 (by decide)).trans (W1_arg4 m ρ c)
theorem W3_arg4 : W3 m ρ c (Proc.devRef .tc main_arg4) = ⟪W2⟫ := (keep1_arg4 (W2 m ρ c)).trans (W2_arg4 m ρ c)
theorem W4_arg4 : W4 m ρ c (Proc.devRef .tc main_arg4) = ⟪W2⟫ := (W4_of_ne m ρ c main_arg4 (by decide)).trans (W3_arg4 m ρ c)
theorem W5_arg4 : W5 m ρ c (Proc.devRef .tc main_arg4) = ⟪W2⟫ := (keep2_arg4 (W4 m ρ c)).trans (W4_arg4 m ρ c)
theorem W6_arg4 : W6 m ρ c (Proc.devRef .tc main_arg4) = ⟪W2⟫ := (W6_of_ne m ρ c main_arg4 (by decide)).trans (W5_arg4 m ρ c)
theorem W7_arg4 : W7 m ρ c (Proc.devRef .tc main_arg4) = ⟪W2⟫ := (keep3_arg4 (W6 m ρ c)).trans (W6_arg4 m ρ c)

/-! ### The computed arrays -/

set_option quotPrecheck false in
local notation "⟪p1⟫" => Cert.Spec.lin1Row ⟪x⟫ ⟪W1⟫ ⟪b1⟫
set_option quotPrecheck false in
local notation "⟪h1⟫" => Cert.Spec.lrelu (Cert.Spec.aggK ⟪p1⟫ ⟪ew⟫ ⟪src⟫ ⟪dst⟫ ⟪deg⟫)
set_option quotPrecheck false in
local notation "⟪p2⟫" => Cert.Spec.lin2Row ⟪h1⟫ ⟪W2⟫ ⟪b2⟫

variable (H0 : ∀ (V : (c : Dev nD) → (b : Ref sig .tc) → Buf (Elt Ideal) ((c : Thread nD τ).loc b)) (c : Dev nD),
      (dat0 (F := Ideal) V c).arrAt 3 cfg0.N = Cert.Spec.lin1Row (V c main_arg0) (V c main_arg2) (V c main_v4))
include H0

/-- After region 0: the first projection. -/
theorem W2_v5 : W2 m ρ c (Proc.devRef .tc main_v5) = ⟪p1⟫ :=
  (W2_arr m ρ c 3).trans ((H0 (V1 m ρ) c).trans (by
    show Cert.Spec.lin1Row (W1 m ρ c (Proc.devRef .tc main_arg0)) (W1 m ρ c (Proc.devRef .tc main_arg2)) (W1 m ρ c (Proc.devRef .tc main_v4)) = _
    rw [W1_arg0 m ρ c, W1_arg2 m ρ c, W1_v4 m ρ c]))

theorem W3_v12 : W3 m ρ c (Proc.devRef .tc main_v12) = Cert.Spec.gath ⟪p1⟫ ⟪src⟫ :=
  (ops1_v12 (W2 m ρ c)).trans (by rw [W2_v5 m ρ c H0, W2_arg6 m ρ c])
omit H0 in
theorem W3_v13 : W3 m ρ c (Proc.devRef .tc main_v13) = ⟪ew⟫ :=
  (ops1_v13 (W2 m ρ c)).trans (by rw [W2_arg1 m ρ c])

variable (H1 : ∀ (V : (c : Dev nD) → (b : Ref sig .tc) → Buf (Elt Ideal) ((c : Thread nD τ).loc b)) (c : Dev nD),
      (dat1 (F := Ideal) V c).arrAt 2 cfg1.N = Cert.Spec.msgCol (V c main_v12) (V c main_v13))
include H1

/-- After region 1: the first layer's scaled rows. -/
theorem W4_v14 : W4 m ρ c (Proc.devRef .tc main_v14) = Cert.Spec.msgCol (Cert.Spec.gath ⟪p1⟫ ⟪src⟫) ⟪ew⟫ :=
  (W4_arr m ρ c 2).trans ((H1 (V3 m ρ) c).trans (by
    show Cert.Spec.msgCol (W3 m ρ c (Proc.devRef .tc main_v12)) (W3 m ρ c (Proc.devRef .tc main_v13)) = _
    rw [W3_v12 m ρ c H0, W3_v13 m ρ c]))

theorem W5_v17 : W5 m ρ c (Proc.devRef .tc main_v17) = Cert.Spec.scat ⟪dst⟫ (Cert.Spec.msgCol (Cert.Spec.gath ⟪p1⟫ ⟪src⟫) ⟪ew⟫) :=
  (ops2_v17 (W4 m ρ c)).trans (by rw [W4_arg7 m ρ c, W4_v14 m ρ c H0 H1])
omit H0 H1 in
theorem W5_v18 : W5 m ρ c (Proc.devRef .tc main_v18) = ⟪deg⟫ :=
  (ops2_v18 (W4 m ρ c)).trans (by rw [W4_v3 m ρ c])

variable (H2 : ∀ (V : (c : Dev nD) → (b : Ref sig .tc) → Buf (Elt Ideal) ((c : Thread nD τ).loc b)) (c : Dev nD),
      (dat2 (F := Ideal) V c).arrAt 2 cfg2.N = Cert.Spec.lrelu (Cert.Spec.divCol (V c main_v17) (Cert.Spec.maxCol (V c main_v18))))
include H2

/-- After region 2: the first layer, rectified. -/
theorem W6_v19 : W6 m ρ c (Proc.devRef .tc main_v19) = ⟪h1⟫ :=
  (W6_arr m ρ c 2).trans ((H2 (V5 m ρ) c).trans (by
    show Cert.Spec.lrelu (Cert.Spec.divCol (W5 m ρ c (Proc.devRef .tc main_v17)) (Cert.Spec.maxCol (W5 m ρ c (Proc.devRef .tc main_v18)))) = _
    rw [W5_v17 m ρ c H0 H1, W5_v18 m ρ c]
    rfl))

theorem W7_v19 : W7 m ρ c (Proc.devRef .tc main_v19) = ⟪h1⟫ := (keep3_v19 (W6 m ρ c)).trans (W6_v19 m ρ c H0 H1 H2)
omit H0 H1 H2 in
theorem W7_v20 : W7 m ρ c (Proc.devRef .tc main_v20) = ⟪b2⟫ :=
  (ops3_v20 (W6 m ρ c)).trans (by rw [W6_arg5 m ρ c])

variable (H3 : ∀ (V : (c : Dev nD) → (b : Ref sig .tc) → Buf (Elt Ideal) ((c : Thread nD τ).loc b)) (c : Dev nD),
      (dat3 (F := Ideal) V c).arrAt 3 cfg3.N = Cert.Spec.lin2Row (V c main_v19) (V c main_arg4) (V c main_v20))
include H3

/-- After region 3: the second projection. -/
theorem W8_v21 : W8 m ρ c (Proc.devRef .tc main_v21) = ⟪p2⟫ :=
  (W8_arr m ρ c 3).trans ((H3 (V7 m ρ) c).trans (by
    show Cert.Spec.lin2Row (W7 m ρ c (Proc.devRef .tc main_v19)) (W7 m ρ c (Proc.devRef .tc main_arg4)) (W7 m ρ c (Proc.devRef .tc main_v20)) = _
    rw [W7_v19 m ρ c H0 H1 H2, W7_arg4 m ρ c, W7_v20 m ρ c]))

theorem W9_v28 : W9 m ρ c (Proc.devRef .tc main_v28) = Cert.Spec.gath ⟪p2⟫ ⟪src⟫ :=
  (ops4_v28 (W8 m ρ c)).trans (by rw [W8_v21 m ρ c H0 H1 H2 H3, W8_arg6 m ρ c])
omit H0 H1 H2 H3 in
theorem W9_v29 : W9 m ρ c (Proc.devRef .tc main_v29) = ⟪ew⟫ :=
  (ops4_v29 (W8 m ρ c)).trans (by rw [W8_arg1 m ρ c])

variable (H4 : ∀ (V : (c : Dev nD) → (b : Ref sig .tc) → Buf (Elt Ideal) ((c : Thread nD τ).loc b)) (c : Dev nD),
      (dat4 (F := Ideal) V c).arrAt 2 cfg4.N = Cert.Spec.msgCol (V c main_v28) (V c main_v29))
include H4

/-- After region 4: the second layer's scaled rows. -/
theorem W10_v30 : W10 m ρ c (Proc.devRef .tc main_v30) = Cert.Spec.msgCol (Cert.Spec.gath ⟪p2⟫ ⟪src⟫) ⟪ew⟫ :=
  (W10_arr m ρ c 2).trans ((H4 (V9 m ρ) c).trans (by
    show Cert.Spec.msgCol (W9 m ρ c (Proc.devRef .tc main_v28)) (W9 m ρ c (Proc.devRef .tc main_v29)) = _
    rw [W9_v28 m ρ c H0 H1 H2 H3, W9_v29 m ρ c]))

theorem W11_v33 : W11 m ρ c (Proc.devRef .tc main_v33) = Cert.Spec.scat ⟪dst⟫ (Cert.Spec.msgCol (Cert.Spec.gath ⟪p2⟫ ⟪src⟫) ⟪ew⟫) :=
  (ops5_v33 (W10 m ρ c)).trans (by rw [W10_arg7 m ρ c, W10_v30 m ρ c H0 H1 H2 H3 H4])
omit H0 H1 H2 H3 H4 in
theorem W11_v34 : W11 m ρ c (Proc.devRef .tc main_v34) = ⟪deg⟫ :=
  (ops5_v34 (W10 m ρ c)).trans (by rw [W10_v3 m ρ c])

end Walk

/-! ## The result -/

/-- After region 5 the result buffer holds the two-layer network of the launch arrays, as the kernel arranges it:
    the biases as rows, the edge weights as a column, the in-degrees as a column. -/
theorem result_walk
    (H0 : ∀ (V : (c : Dev nD) → (b : Ref sig .tc) → Buf (Elt Ideal) ((c : Thread nD τ).loc b)) (c : Dev nD),
      (dat0 (F := Ideal) V c).arrAt 3 cfg0.N = Cert.Spec.lin1Row (V c main_arg0) (V c main_arg2) (V c main_v4))
    (H1 : ∀ (V : (c : Dev nD) → (b : Ref sig .tc) → Buf (Elt Ideal) ((c : Thread nD τ).loc b)) (c : Dev nD),
      (dat1 (F := Ideal) V c).arrAt 2 cfg1.N = Cert.Spec.msgCol (V c main_v12) (V c main_v13))
    (H2 : ∀ (V : (c : Dev nD) → (b : Ref sig .tc) → Buf (Elt Ideal) ((c : Thread nD τ).loc b)) (c : Dev nD),
      (dat2 (F := Ideal) V c).arrAt 2 cfg2.N = Cert.Spec.lrelu (Cert.Spec.divCol (V c main_v17) (Cert.Spec.maxCol (V c main_v18))))
    (H3 : ∀ (V : (c : Dev nD) → (b : Ref sig .tc) → Buf (Elt Ideal) ((c : Thread nD τ).loc b)) (c : Dev nD),
      (dat3 (F := Ideal) V c).arrAt 3 cfg3.N = Cert.Spec.lin2Row (V c main_v19) (V c main_arg4) (V c main_v20))
    (H4 : ∀ (V : (c : Dev nD) → (b : Ref sig .tc) → Buf (Elt Ideal) ((c : Thread nD τ).loc b)) (c : Dev nD),
      (dat4 (F := Ideal) V c).arrAt 2 cfg4.N = Cert.Spec.msgCol (V c main_v28) (V c main_v29))
    (H5 : ∀ (V : (c : Dev nD) → (b : Ref sig .tc) → Buf (Elt Ideal) ((c : Thread nD τ).loc b)) (c : Dev nD),
      (dat5 (F := Ideal) V c).arrAt 2 cfg5.N = Cert.Spec.divCol (V c main_v33) (Cert.Spec.maxCol (V c main_v34)))
    (m : (ℓ : Loc nD τ sig) → Buf (Elt Ideal) ℓ) (ρ : Dev nD → PrngReg) (c : Dev nD) :
    W12 m ρ c (Proc.devRef .tc main_v35) =
      Cert.Spec.resultK (m ((c.tc : Thread nD τ).loc main_arg0))
        (shapeCast S1200000x1 (m ((c.tc : Thread nD τ).loc main_arg1) : FVec Ideal S1200000 .f32) shapeCasts_S1200000_S1200000x1)
        (m ((c.tc : Thread nD τ).loc main_arg2))
        (shapeCast S1x64 (m ((c.tc : Thread nD τ).loc main_arg3) : FVec Ideal S64 .f32) shapeCasts_S64_S1x64)
        (m ((c.tc : Thread nD τ).loc main_arg4))
        (shapeCast S1x64 (m ((c.tc : Thread nD τ).loc main_arg5) : FVec Ideal S64 .f32) shapeCasts_S64_S1x64)
        (m ((c.tc : Thread nD τ).loc main_arg6)) (m ((c.tc : Thread nD τ).loc main_arg7))
        (shapeCast S50000x1 (Cert.Spec.deg (m ((c.tc : Thread nD τ).loc main_arg7))) shapeCasts_S50000_S50000x1) :=
  (W12_arr m ρ c 2).trans ((H5 (V11 m ρ) c).trans (by
    show Cert.Spec.divCol (W11 m ρ c (Proc.devRef .tc main_v33)) (Cert.Spec.maxCol (W11 m ρ c (Proc.devRef .tc main_v34))) = _
    rw [W11_v33 m ρ c H0 H1 H2 H3 H4, W11_v34 m ρ c]
    rfl))

/-- The idealized kernel runs, and ends with that network in its result buffer and its arguments as launched. -/
theorem run_result
    (H0 : ∀ (V : (c : Dev nD) → (b : Ref sig .tc) → Buf (Elt Ideal) ((c : Thread nD τ).loc b)) (c : Dev nD),
      (dat0 (F := Ideal) V c).arrAt 3 cfg0.N = Cert.Spec.lin1Row (V c main_arg0) (V c main_arg2) (V c main_v4))
    (H1 : ∀ (V : (c : Dev nD) → (b : Ref sig .tc) → Buf (Elt Ideal) ((c : Thread nD τ).loc b)) (c : Dev nD),
      (dat1 (F := Ideal) V c).arrAt 2 cfg1.N = Cert.Spec.msgCol (V c main_v12) (V c main_v13))
    (H2 : ∀ (V : (c : Dev nD) → (b : Ref sig .tc) → Buf (Elt Ideal) ((c : Thread nD τ).loc b)) (c : Dev nD),
      (dat2 (F := Ideal) V c).arrAt 2 cfg2.N = Cert.Spec.lrelu (Cert.Spec.divCol (V c main_v17) (Cert.Spec.maxCol (V c main_v18))))
    (H3 : ∀ (V : (c : Dev nD) → (b : Ref sig .tc) → Buf (Elt Ideal) ((c : Thread nD τ).loc b)) (c : Dev nD),
      (dat3 (F := Ideal) V c).arrAt 3 cfg3.N = Cert.Spec.lin2Row (V c main_v19) (V c main_arg4) (V c main_v20))
    (H4 : ∀ (V : (c : Dev nD) → (b : Ref sig .tc) → Buf (Elt Ideal) ((c : Thread nD τ).loc b)) (c : Dev nD),
      (dat4 (F := Ideal) V c).arrAt 2 cfg4.N = Cert.Spec.msgCol (V c main_v28) (V c main_v29))
    (H5 : ∀ (V : (c : Dev nD) → (b : Ref sig .tc) → Buf (Elt Ideal) ((c : Thread nD τ).loc b)) (c : Dev nD),
      (dat5 (F := Ideal) V c).arrAt 2 cfg5.N = Cert.Spec.divCol (V c main_v33) (Cert.Spec.maxCol (V c main_v34)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35) = Cert.Spec.resultK (m ((c.tc : Thread nD τ).loc main_arg0))
        (shapeCast S1200000x1 (m ((c.tc : Thread nD τ).loc main_arg1) : FVec Ideal S1200000 .f32) shapeCasts_S1200000_S1200000x1)
        (m ((c.tc : Thread nD τ).loc main_arg2))
        (shapeCast S1x64 (m ((c.tc : Thread nD τ).loc main_arg3) : FVec Ideal S64 .f32) shapeCasts_S64_S1x64)
        (m ((c.tc : Thread nD τ).loc main_arg4))
        (shapeCast S1x64 (m ((c.tc : Thread nD τ).loc main_arg5) : FVec Ideal S64 .f32) shapeCasts_S64_S1x64)
        (m ((c.tc : Thread nD τ).loc main_arg6)) (m ((c.tc : Thread nD τ).loc main_arg7))
        (shapeCast S50000x1 (Cert.Spec.deg (m ((c.tc : Thread nD τ).loc main_arg7))) shapeCasts_S50000_S50000x1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_walk H0 H1 H2 H3 H4 H5 m ρ c), (h c).2⟩)
    (Cert.KernelIdeal.KRun.run_named m ρ)

end Cert.KernelIdeal.KWalk

end
-- ==== Proof.RefRun.lean ====
/-
  The reference program's run, read back.

  The reference is a straight line of tensor operations: a two-layer graph network, each layer a projection,
  a gather of the rows at the edges' sources, a scaling by the edge weights, a scatter-add to the edges'
  destinations and a division by the clamped in-degree, with a leaky rectifier between the layers. The line is
  cut here into three stretches — the first layer, the rectifier, the second layer — and what each stretch leaves
  in its last buffer is read off as the whole-array function of the specification, from ANY contents before it;
  chaining the three readings gives the network's result at the program's result buffer, the arguments untouched.
-/
import proofs.«112303_j23192823399233_2_alg».proof.Proof.Spec
import proofs.«112303_j23192823399233_2_alg».proof.Proof.Gen.ReferenceIdeal
import Idealize.ShloMosaic.Lib.StableHlo.Run
import Idealize.ShloMosaic.Lib.Pipeline.Frame

noncomputable section

namespace Cert.ReferenceIdeal.RefRun

open Idealize.ShloMosaic Idealize.ShloMosaic.TcCoe Idealize.SL.Sem Cert.ReferenceIdeal
open Idealize.ShloMosaic.StableHlo (seq after after_cons after_nil tcRefs run_seq launchContents
  nullary_bufs_sub unary_bufs_sub binary_bufs_sub ternary_bufs_sub)

open Cert.ReferenceIdeal.Facts₀ Cert.ReferenceIdeal.Facts

variable {F : FTy → Type} [FloatOps F]

/-- The first layer's 32 operations, in program order: projection, index wrap, gather, scaling, the two
    scatter-adds (rows and ones), the clamp of the degree and the division. -/
abbrev layer1 : List (HloOp τ sig (Elt F)) :=
  StableHlo.binary main_arg0 main_arg2 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ::
  StableHlo.unary main_arg3 main_v1 (broadcastInDim S1x64 ![1] bcast_S64_S1x64_1 : (⟨S64, .f32⟩ : BufTy).Contents (Elt F) → (⟨S1x64, .f32⟩ : BufTy).Contents (Elt F)) ::
  StableHlo.unary main_v1 main_v2 (broadcastInDim S50000x64 ![0, 1] bcast_S1x64_S50000x64_0_1 : (⟨S1x64, .f32⟩ : BufTy).Contents (Elt F) → (⟨S50000x64, .f32⟩ : BufTy).Contents (Elt F)) ::
  StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)) ::
  StableHlo.nullary main_c (constantI S_ 32 0#32) ::
  StableHlo.unary main_c main_v4 (broadcastInDim S1200000 ![] bcast_S_S1200000 : (⟨S_, .i32⟩ : BufTy).Contents (Elt F) → (⟨S1200000, .i32⟩ : BufTy).Contents (Elt F)) ::
  StableHlo.binary main_arg6 main_v4 main_v5 (cmpi .slt : (⟨S1200000, .i32⟩ : BufTy).Contents (Elt F) → (⟨S1200000, .i32⟩ : BufTy).Contents (Elt F) → (⟨S1200000, .i1⟩ : BufTy).Contents (Elt F)) ::
  StableHlo.nullary main_c_0 (constantI S_ 32 50000#32) ::
  StableHlo.unary main_c_0 main_v6 (broadcastInDim S1200000 ![] bcast_S_S1200000 : (⟨S_, .i32⟩ : BufTy).Contents (Elt F) → (⟨S1200000, .i32⟩ : BufTy).Contents (Elt F)) ::
  StableHlo.binary main_arg6 main_v6 main_v7 (addi : (⟨S1200000, .i32⟩ : BufTy).Contents (Elt F) → (⟨S1200000, .i32⟩ : BufTy).Contents (Elt F) → (⟨S1200000, .i32⟩ : BufTy).Contents (Elt F)) ::
  StableHlo.ternary main_v5 main_v7 main_arg6 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ::
  StableHlo.unary main_v8 main_v9 (broadcastInDim S1200000x1 ![0] bcast_S1200000_S1200000x1_0 : (⟨S1200000, .i32⟩ : BufTy).Contents (Elt F) → (⟨S1200000x1, .i32⟩ : BufTy).Contents (Elt F)) ::
  StableHlo.binary main_v3 main_v9 main_v10 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)) ::
  StableHlo.unary main_arg1 main_v11 (broadcastInDim S1200000x1 ![0] bcast_S1200000_S1200000x1_0 : (⟨S1200000, .f32⟩ : BufTy).Contents (Elt F) → (⟨S1200000x1, .f32⟩ : BufTy).Contents (Elt F)) ::
  StableHlo.unary main_v11 main_v12 (broadcastInDim S1200000x64 ![0, 1] bcast_S1200000x1_S1200000x64_0_1 : (⟨S1200000x1, .f32⟩ : BufTy).Contents (Elt F) → (⟨S1200000x64, .f32⟩ : BufTy).Contents (Elt F)) ::
  StableHlo.binary main_v10 main_v12 main_v13 (mulf : (⟨S1200000x64, .f32⟩ : BufTy).Contents (Elt F) → (⟨S1200000x64, .f32⟩ : BufTy).Contents (Elt F) → (⟨S1200000x64, .f32⟩ : BufTy).Contents (Elt F)) ::
  StableHlo.nullary main_cst (constant S_ .f32 0x00000000#32) ::
  StableHlo.unary main_cst main_v14 (broadcastInDim S50000x64 ![] bcast_S_S50000x64 : (⟨S_, .f32⟩ : BufTy).Contents (Elt F) → (⟨S50000x64, .f32⟩ : BufTy).Contents (Elt F)) ::
  StableHlo.unary main_arg7 main_v15 (broadcastInDim S1200000x1 ![0] bcast_S1200000_S1200000x1_0 : (⟨S1200000, .i32⟩ : BufTy).Contents (Elt F) → (⟨S1200000x1, .i32⟩ : BufTy).Contents (Elt F)) ::
  StableHlo.ternary main_v14 main_v15 main_v13 main_v16 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)) ::
  StableHlo.nullary main_cst_1 (constant S_ .f32 0x3F800000#32) ::
  StableHlo.unary main_cst_1 main_v17 (broadcastInDim S1200000 ![] bcast_S_S1200000 : (⟨S_, .f32⟩ : BufTy).Contents (Elt F) → (⟨S1200000, .f32⟩ : BufTy).Contents (Elt F)) ::
  StableHlo.nullary main_cst_2 (constant S_ .f32 0x00000000#32) ::
  StableHlo.unary main_cst_2 main_v18 (broadcastInDim S50000 ![] bcast_S_S50000 : (⟨S_, .f32⟩ : BufTy).Contents (Elt F) → (⟨S50000, .f32⟩ : BufTy).Contents (Elt F)) ::
  StableHlo.unary main_arg7 main_v19 (broadcastInDim S1200000x1 ![0] bcast_S1200000_S1200000x1_0 : (⟨S1200000, .i32⟩ : BufTy).Contents (Elt F) → (⟨S1200000x1, .i32⟩ : BufTy).Contents (Elt F)) ::
  StableHlo.ternary main_v18 main_v19 main_v17 main_v20 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)) ::
  StableHlo.nullary main_cst_3 (constant S_ .f32 0x3F800000#32) ::
  StableHlo.unary main_cst_3 main_v21 (broadcastInDim S50000 ![] bcast_S_S50000 : (⟨S_, .f32⟩ : BufTy).Contents (Elt F) → (⟨S50000, .f32⟩ : BufTy).Contents (Elt F)) ::
  StableHlo.binary main_v20 main_v21 main_v22 (maximumf : (⟨S50000, .f32⟩ : BufTy).Contents (Elt F) → (⟨S50000, .f32⟩ : BufTy).Contents (Elt F) → (⟨S50000, .f32⟩ : BufTy).Contents (Elt F)) ::
  StableHlo.unary main_v22 main_v23 (broadcastInDim S50000x1 ![0] bcast_S50000_S50000x1_0 : (⟨S50000, .f32⟩ : BufTy).Contents (Elt F) → (⟨S50000x1, .f32⟩ : BufTy).Contents (Elt F)) ::
  StableHlo.unary main_v23 main_v24 (broadcastInDim S50000x64 ![0, 1] bcast_S50000x1_S50000x64_0_1 : (⟨S50000x1, .f32⟩ : BufTy).Contents (Elt F) → (⟨S50000x64, .f32⟩ : BufTy).Contents (Elt F)) ::
  StableHlo.binary main_v16 main_v24 main_v25 (Host.divf : (⟨S50000x64, .f32⟩ : BufTy).Contents (Elt F) → (⟨S50000x64, .f32⟩ : BufTy).Contents (Elt F) → (⟨S50000x64, .f32⟩ : BufTy).Contents (Elt F)) :: []

/-- The rectifier's 8 operations: the slope's constant, then the called function's body at the call's buffers
    (zero, its broadcast, the comparison, the slope converted and broadcast, the product, the selection). -/
abbrev rect : List (HloOp τ sig (Elt F)) :=
  StableHlo.nullary main_cst_4 (constant S_ .f32 0x3C23D70A#32) ::
  StableHlo.TRef.nullary main_call0.cst (constant S_ .f32 0x00000000#32) ::
  StableHlo.TRef.unary main_call0.cst main_call0.v0 (broadcastInDim S50000x64 ![] bcast_S_S50000x64) ::
  StableHlo.TRef.binary (.of main_v25) main_call0.v0 main_call0.v1 (cmpf .oge) ::
  StableHlo.TRef.unary (.of main_cst_4) main_call0.v2 id ::
  StableHlo.TRef.unary main_call0.v2 main_call0.v3 (broadcastInDim S50000x64 ![] bcast_S_S50000x64) ::
  StableHlo.TRef.binary main_call0.v3 (.of main_v25) main_call0.v4 mulf ::
  StableHlo.TRef.ternary main_call0.v1 (.of main_v25) main_call0.v4 main_call0.call0.v0 select :: []

/-- The second layer's 32 operations, in program order. -/
abbrev layer2 : List (HloOp τ sig (Elt F)) :=
  StableHlo.binary main_v26 main_arg4 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ::
  StableHlo.unary main_arg5 main_v28 (broadcastInDim S1x64 ![1] bcast_S64_S1x64_1 : (⟨S64, .f32⟩ : BufTy).Contents (Elt F) → (⟨S1x64, .f32⟩ : BufTy).Contents (Elt F)) ::
  StableHlo.unary main_v28 main_v29 (broadcastInDim S50000x64 ![0, 1] bcast_S1x64_S50000x64_0_1 : (⟨S1x64, .f32⟩ : BufTy).Contents (Elt F) → (⟨S50000x64, .f32⟩ : BufTy).Contents (Elt F)) ::
  StableHlo.binary main_v27 main_v29 main_v30 (addf : (⟨S50000x64, .f32⟩ : BufTy).Contents (Elt F) → (⟨S50000x64, .f32⟩ : BufTy).Contents (Elt F) → (⟨S50000x64, .f32⟩ : BufTy).Contents (Elt F)) ::
  StableHlo.nullary main_c_5 (constantI S_ 32 0#32) ::
  StableHlo.unary main_c_5 main_v31 (broadcastInDim S1200000 ![] bcast_S_S1200000 : (⟨S_, .i32⟩ : BufTy).Contents (Elt F) → (⟨S1200000, .i32⟩ : BufTy).Contents (Elt F)) ::
  StableHlo.binary main_arg6 main_v31 main_v32 (cmpi .slt : (⟨S1200000, .i32⟩ : BufTy).Contents (Elt F) → (⟨S1200000, .i32⟩ : BufTy).Contents (Elt F) → (⟨S1200000, .i1⟩ : BufTy).Contents (Elt F)) ::
  StableHlo.nullary main_c_6 (constantI S_ 32 50000#32) ::
  StableHlo.unary main_c_6 main_v33 (broadcastInDim S1200000 ![] bcast_S_S1200000 : (⟨S_, .i32⟩ : BufTy).Contents (Elt F) → (⟨S1200000, .i32⟩ : BufTy).Contents (Elt F)) ::
  StableHlo.binary main_arg6 main_v33 main_v34 (addi : (⟨S1200000, .i32⟩ : BufTy).Contents (Elt F) → (⟨S1200000, .i32⟩ : BufTy).Contents (Elt F) → (⟨S1200000, .i32⟩ : BufTy).Contents (Elt F)) ::
  StableHlo.ternary main_v32 main_v34 main_arg6 main_v35 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ::
  StableHlo.unary main_v35 main_v36 (broadcastInDim S1200000x1 ![0] bcast_S1200000_S1200000x1_0 : (⟨S1200000, .i32⟩ : BufTy).Contents (Elt F) → (⟨S1200000x1, .i32⟩ : BufTy).Contents (Elt F)) ::
  StableHlo.binary main_v30 main_v36 main_v37 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)) ::
  StableHlo.unary main_arg1 main_v38 (broadcastInDim S1200000x1 ![0] bcast_S1200000_S1200000x1_0 : (⟨S1200000, .f32⟩ : BufTy).Contents (Elt F) → (⟨S1200000x1, .f32⟩ : BufTy).Contents (Elt F)) ::
  StableHlo.unary main_v38 main_v39 (broadcastInDim S1200000x64 ![0, 1] bcast_S1200000x1_S1200000x64_0_1 : (⟨S1200000x1, .f32⟩ : BufTy).Contents (Elt F) → (⟨S1200000x64, .f32⟩ : BufTy).Contents (Elt F)) ::
  StableHlo.binary main_v37 main_v39 main_v40 (mulf : (⟨S1200000x64, .f32⟩ : BufTy).Contents (Elt F) → (⟨S1200000x64, .f32⟩ : BufTy).Contents (Elt F) → (⟨S1200000x64, .f32⟩ : BufTy).Contents (Elt F)) ::
  StableHlo.nullary main_cst_7 (constant S_ .f32 0x00000000#32) ::
  StableHlo.unary main_cst_7 main_v41 (broadcastInDim S50000x64 ![] bcast_S_S50000x64 : (⟨S_, .f32⟩ : BufTy).Contents (Elt F) → (⟨S50000x64, .f32⟩ : BufTy).Contents (Elt F)) ::
  StableHlo.unary main_arg7 main_v42 (broadcastInDim S1200000x1 ![0] bcast_S1200000_S1200000x1_0 : (⟨S1200000, .i32⟩ : BufTy).Contents (Elt F) → (⟨S1200000x1, .i32⟩ : BufTy).Contents (Elt F)) ::
  StableHlo.ternary main_v41 main_v42 main_v40 main_v43 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)) ::
  StableHlo.nullary main_cst_8 (constant S_ .f32 0x3F800000#32) ::
  StableHlo.unary main_cst_8 main_v44 (broadcastInDim S1200000 ![] bcast_S_S1200000 : (⟨S_, .f32⟩ : BufTy).Contents (Elt F) → (⟨S1200000, .f32⟩ : BufTy).Contents (Elt F)) ::
  StableHlo.nullary main_cst_9 (constant S_ .f32 0x00000000#32) ::
  StableHlo.unary main_cst_9 main_v45 (broadcastInDim S50000 ![] bcast_S_S50000 : (⟨S_, .f32⟩ : BufTy).Contents (Elt F) → (⟨S50000, .f32⟩ : BufTy).Contents (Elt F)) ::
  StableHlo.unary main_arg7 main_v46 (broadcastInDim S1200000x1 ![0] bcast_S1200000_S1200000x1_0 : (⟨S1200000, .i32⟩ : BufTy).Contents (Elt F) → (⟨S1200000x1, .i32⟩ : BufTy).Contents (Elt F)) ::
  StableHlo.ternary main_v45 main_v46 main_v44 main_v47 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)) ::
  StableHlo.nullary main_cst_10 (constant S_ .f32 0x3F800000#32) ::
  StableHlo.unary main_cst_10 main_v48 (broadcastInDim S50000 ![] bcast_S_S50000 : (⟨S_, .f32⟩ : BufTy).Contents (Elt F) → (⟨S50000, .f32⟩ : BufTy).Contents (Elt F)) ::
  StableHlo.binary main_v47 main_v48 main_v49 (maximumf : (⟨S50000, .f32⟩ : BufTy).Contents (Elt F) → (⟨S50000, .f32⟩ : BufTy).Contents (Elt F) → (⟨S50000, .f32⟩ : BufTy).Contents (Elt F)) ::
  StableHlo.unary main_v49 main_v50 (broadcastInDim S50000x1 ![0] bcast_S50000_S50000x1_0 : (⟨S50000, .f32⟩ : BufTy).Contents (Elt F) → (⟨S50000x1, .f32⟩ : BufTy).Contents (Elt F)) ::
  StableHlo.unary main_v50 main_v51 (broadcastInDim S50000x64 ![0, 1] bcast_S50000x1_S50000x64_0_1 : (⟨S50000x1, .f32⟩ : BufTy).Contents (Elt F) → (⟨S50000x64, .f32⟩ : BufTy).Contents (Elt F)) ::
  StableHlo.binary main_v43 main_v51 main_v52 (Host.divf : (⟨S50000x64, .f32⟩ : BufTy).Contents (Elt F) → (⟨S50000x64, .f32⟩ : BufTy).Contents (Elt F) → (⟨S50000x64, .f32⟩ : BufTy).Contents (Elt F)) :: []

/-- The whole line. -/
abbrev ops : List (HloOp τ sig (Elt F)) := layer1 ++ (rect ++ layer2)

set_option maxRecDepth 4096 in
set_option maxHeartbeats 400000 in
/-- The program is that line: the two windows of `main` and the called functions' bodies unfolded, sequencing
    reassociated. -/
theorem main_eq (c : Dev nD) : main (F := F) c = seq ops := by
  simp only [main, main_part0, main_part1, fn_leaky_relu.body, fn_where.body, seq, bind_assoc, pure_bind, List.cons_append, List.nil_append]

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device's one core only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-! ## What each stretch leaves, from any contents `W` before it -/

set_option maxRecDepth 4096 in
set_option maxHeartbeats 400000 in
/-- The first layer leaves, in its last buffer, the layer's aggregate of the projected node features:
    gather by source, scale by the edge weight, add up by destination, divide by the clamped in-degree. -/
theorem layer1_out (W : Valuation τ sig (Elt Ideal)) :
    after (layer1 (F := Ideal)) W (main_v25 : DevRef τ sig)
      = Cert.Spec.agg (Cert.Spec.lin1 (W (main_arg0 : DevRef τ sig)) (W (main_arg2 : DevRef τ sig)) (W (main_arg3 : DevRef τ sig)))
          (W (main_arg1 : DevRef τ sig)) (W (main_arg6 : DevRef τ sig)) (W (main_arg7 : DevRef τ sig)) := by
  after_results_simp
  rfl

set_option maxRecDepth 4096 in
set_option maxHeartbeats 400000 in
/-- The rectifier's stretch leaves the leaky rectifier of what the first layer left. The called function's buffers
    carry their tensor types, so its operations read and write through transports along type equalities that are
    the identity at these literal buffers; they are removed before the two sides are compared. -/
theorem rect_out (W : Valuation τ sig (Elt Ideal)) :
    after (rect (F := Ideal)) W (main_v26 : DevRef τ sig) = Cert.Spec.lrelu (W (main_v25 : DevRef τ sig)) := by
  after_results_simp
  simp only [StableHlo.TRef.toBuf, StableHlo.TRef.ofBuf, cast_eq]
  rfl

set_option maxRecDepth 4096 in
set_option maxHeartbeats 400000 in
/-- The second layer leaves, in the program's result buffer, the layer's aggregate of the projected rectified
    features. -/
theorem layer2_out (W : Valuation τ sig (Elt Ideal)) :
    after (layer2 (F := Ideal)) W (main_v52 : DevRef τ sig)
      = Cert.Spec.agg (Cert.Spec.lin2 (W (main_v26 : DevRef τ sig)) (W (main_arg4 : DevRef τ sig)) (W (main_arg5 : DevRef τ sig)))
          (W (main_arg1 : DevRef τ sig)) (W (main_arg6 : DevRef τ sig)) (W (main_arg7 : DevRef τ sig)) := by
  after_results_simp
  rfl

/-! ## No stretch writes an argument -/

theorem layer1_arg0 (W : Valuation τ sig (Elt Ideal)) :
    after (layer1 (F := Ideal)) W (main_arg0 : DevRef τ sig) = W (main_arg0 : DevRef τ sig) := by after_results_simp
theorem layer1_arg1 (W : Valuation τ sig (Elt Ideal)) :
    after (layer1 (F := Ideal)) W (main_arg1 : DevRef τ sig) = W (main_arg1 : DevRef τ sig) := by after_results_simp
theorem layer1_arg2 (W : Valuation τ sig (Elt Ideal)) :
    after (layer1 (F := Ideal)) W (main_arg2 : DevRef τ sig) = W (main_arg2 : DevRef τ sig) := by after_results_simp
theorem layer1_arg3 (W : Valuation τ sig (Elt Ideal)) :
    after (layer1 (F := Ideal)) W (main_arg3 : DevRef τ sig) = W (main_arg3 : DevRef τ sig) := by after_results_simp
theorem layer1_arg4 (W : Valuation τ sig (Elt Ideal)) :
    after (layer1 (F := Ideal)) W (main_arg4 : DevRef τ sig) = W (main_arg4 : DevRef τ sig) := by after_results_simp
theorem layer1_arg5 (W : Valuation τ sig (Elt Ideal)) :
    after (layer1 (F := Ideal)) W (main_arg5 : DevRef τ sig) = W (main_arg5 : DevRef τ sig) := by after_results_simp
theorem layer1_arg6 (W : Valuation τ sig (Elt Ideal)) :
    after (layer1 (F := Ideal)) W (main_arg6 : DevRef τ sig) = W (main_arg6 : DevRef τ sig) := by after_results_simp
theorem layer1_arg7 (W : Valuation τ sig (Elt Ideal)) :
    after (layer1 (F := Ideal)) W (main_arg7 : DevRef τ sig) = W (main_arg7 : DevRef τ sig) := by after_results_simp

theorem rect_arg0 (W : Valuation τ sig (Elt Ideal)) :
    after (rect (F := Ideal)) W (main_arg0 : DevRef τ sig) = W (main_arg0 : DevRef τ sig) := by after_results_simp
theorem rect_arg1 (W : Valuation τ sig (Elt Ideal)) :
    after (rect (F := Ideal)) W (main_arg1 : DevRef τ sig) = W (main_arg1 : DevRef τ sig) := by after_results_simp
theorem rect_arg2 (W : Valuation τ sig (Elt Ideal)) :
    after (rect (F := Ideal)) W (main_arg2 : DevRef τ sig) = W (main_arg2 : DevRef τ sig) := by after_results_simp
theorem rect_arg3 (W : Valuation τ sig (Elt Ideal)) :
    after (rect (F := Ideal)) W (main_arg3 : DevRef τ sig) = W (main_arg3 : DevRef τ sig) := by after_results_simp
theorem rect_arg4 (W : Valuation τ sig (Elt Ideal)) :
    after (rect (F := Ideal)) W (main_arg4 : DevRef τ sig) = W (main_arg4 : DevRef τ sig) := by after_results_simp
theorem rect_arg5 (W : Valuation τ sig (Elt Ideal)) :
    after (rect (F := Ideal)) W (main_arg5 : DevRef τ sig) = W (main_arg5 : DevRef τ sig) := by after_results_simp
theorem rect_arg6 (W : Valuation τ sig (Elt Ideal)) :
    after (rect (F := Ideal)) W (main_arg6 : DevRef τ sig) = W (main_arg6 : DevRef τ sig) := by after_results_simp
theorem rect_arg7 (W : Valuation τ sig (Elt Ideal)) :
    after (rect (F := Ideal)) W (main_arg7 : DevRef τ sig) = W (main_arg7 : DevRef τ sig) := by after_results_simp

theorem layer2_arg0 (W : Valuation τ sig (Elt Ideal)) :
    after (layer2 (F := Ideal)) W (main_arg0 : DevRef τ sig) = W (main_arg0 : DevRef τ sig) := by after_results_simp
theorem layer2_arg1 (W : Valuation τ sig (Elt Ideal)) :
    after (layer2 (F := Ideal)) W (main_arg1 : DevRef τ sig) = W (main_arg1 : DevRef τ sig) := by after_results_simp
theorem layer2_arg2 (W : Valuation τ sig (Elt Ideal)) :
    after (layer2 (F := Ideal)) W (main_arg2 : DevRef τ sig) = W (main_arg2 : DevRef τ sig) := by after_results_simp
theorem layer2_arg3 (W : Valuation τ sig (Elt Ideal)) :
    after (layer2 (F := Ideal)) W (main_arg3 : DevRef τ sig) = W (main_arg3 : DevRef τ sig) := by after_results_simp
theorem layer2_arg4 (W : Valuation τ sig (Elt Ideal)) :
    after (layer2 (F := Ideal)) W (main_arg4 : DevRef τ sig) = W (main_arg4 : DevRef τ sig) := by after_results_simp
theorem layer2_arg5 (W : Valuation τ sig (Elt Ideal)) :
    after (layer2 (F := Ideal)) W (main_arg5 : DevRef τ sig) = W (main_arg5 : DevRef τ sig) := by after_results_simp
theorem layer2_arg6 (W : Valuation τ sig (Elt Ideal)) :
    after (layer2 (F := Ideal)) W (main_arg6 : DevRef τ sig) = W (main_arg6 : DevRef τ sig) := by after_results_simp
theorem layer2_arg7 (W : Valuation τ sig (Elt Ideal)) :
    after (layer2 (F := Ideal)) W (main_arg7 : DevRef τ sig) = W (main_arg7 : DevRef τ sig) := by after_results_simp

/-! ## The whole line -/

/-- The line leaves the network's result in the program's result buffer: the three readings chained, each
    argument read through the stretches before its use unchanged. -/
theorem out_eq (V : Valuation τ sig (Elt Ideal)) :
    after (ops (F := Ideal)) V (main_v52 : DevRef τ sig)
      = Cert.Spec.result (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [StableHlo.after_append, StableHlo.after_append, layer2_out, rect_out, layer1_out,
    rect_arg1, rect_arg4, rect_arg5, rect_arg6, rect_arg7, layer1_arg1, layer1_arg4, layer1_arg5, layer1_arg6, layer1_arg7]
  rfl

theorem arg0_eq (V : Valuation τ sig (Elt Ideal)) :
    after (ops (F := Ideal)) V (main_arg0 : DevRef τ sig) = V (main_arg0 : DevRef τ sig) := by
  rw [StableHlo.after_append, StableHlo.after_append, layer2_arg0, rect_arg0, layer1_arg0]
theorem arg1_eq (V : Valuation τ sig (Elt Ideal)) :
    after (ops (F := Ideal)) V (main_arg1 : DevRef τ sig) = V (main_arg1 : DevRef τ sig) := by
  rw [StableHlo.after_append, StableHlo.after_append, layer2_arg1, rect_arg1, layer1_arg1]
theorem arg2_eq (V : Valuation τ sig (Elt Ideal)) :
    after (ops (F := Ideal)) V (main_arg2 : DevRef τ sig) = V (main_arg2 : DevRef τ sig) := by
  rw [StableHlo.after_append, StableHlo.after_append, layer2_arg2, rect_arg2, layer1_arg2]
theorem arg3_eq (V : Valuation τ sig (Elt Ideal)) :
    after (ops (F := Ideal)) V (main_arg3 : DevRef τ sig) = V (main_arg3 : DevRef τ sig) := by
  rw [StableHlo.after_append, StableHlo.after_append, layer2_arg3, rect_arg3, layer1_arg3]
theorem arg4_eq (V : Valuation τ sig (Elt Ideal)) :
    after (ops (F := Ideal)) V (main_arg4 : DevRef τ sig) = V (main_arg4 : DevRef τ sig) := by
  rw [StableHlo.after_append, StableHlo.after_append, layer2_arg4, rect_arg4, layer1_arg4]
theorem arg5_eq (V : Valuation τ sig (Elt Ideal)) :
    after (ops (F := Ideal)) V (main_arg5 : DevRef τ sig) = V (main_arg5 : DevRef τ sig) := by
  rw [StableHlo.after_append, StableHlo.after_append, layer2_arg5, rect_arg5, layer1_arg5]
theorem arg6_eq (V : Valuation τ sig (Elt Ideal)) :
    after (ops (F := Ideal)) V (main_arg6 : DevRef τ sig) = V (main_arg6 : DevRef τ sig) := by
  rw [StableHlo.after_append, StableHlo.after_append, layer2_arg6, rect_arg6, layer1_arg6]
theorem arg7_eq (V : Valuation τ sig (Elt Ideal)) :
    after (ops (F := Ideal)) V (main_arg7 : DevRef τ sig) = V (main_arg7 : DevRef τ sig) := by
  rw [StableHlo.after_append, StableHlo.after_append, layer2_arg7, rect_arg7, layer1_arg7]

/-- From any memory with zero counters, every weakly fair execution of the reference terminates with the result
    buffer at the network's value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v52).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.lean ====
/-
  A two-layer graph network on N = 50000 nodes and E = 1200000 edges, as six tiled kernel stages among host
  gathers and scatter-adds, against the same network written with whole-array operations.

  One layer: project the node features (h · W + b), take every edge's source row, scale it by the edge's weight, add
  the rows up per destination node, divide by max(deg, 1) where deg counts the edges into a node; a leaky rectifier of
  slope 0.01 sits between the two layers (Proof/Spec.lean names these stages and their composition `result`).

  The kernel computes the projection, the scaling and the division (with the rectifier) in row tiles — 5000 nodes or
  8000 edges at a time — and the gather, the two scatter-adds and the index wrap on the host, as the reference does.
  At the ideal values every stage agrees entry by entry:
    * a row tile's matrix product into a zero accumulator has the rows of the whole product (the same finite sum over
      the contracted coordinate), and the bias row adds the same entry on both sides (Proof/RegionLin.lean);
    * a tile of edges scaled by its column of weights is the rows of the whole product of the gathered table with the
      broadcast weights (Proof/RegionMul.lean);
    * a tile of sums divided by max(deg, 1) on its column of degrees, rectified or not, is the rows of the whole
      quotient (Proof/RegionNorm.lean);
    * the tiles of each stage cover its array, so each stage's array ends as the whole-array function of the arrays the
      stage found; walking the result back through the host operations between the stages gives the network over
      reshaped operands (Proof/KWalk.lean), and a reshape to a row or a column lays the entries exactly as the
      reference's broadcast does (Proof/SpecBridge.lean);
    * the reference's own operations, composed in program order, are `result` (Proof/RefRun.lean).
  The gather, the scatter-adds and the index wrap are the same operations of equal operands on both sides and are never
  opened. No step needs the inputs to be finite.
-/
import proofs.«112303_j23192823399233_2_alg».proof.Defs
import proofs.«112303_j23192823399233_2_alg».proof.Proof.Gen.Kernel
import proofs.«112303_j23192823399233_2_alg».proof.Proof.Gen.Kernel.Frame
import proofs.«112303_j23192823399233_2_alg».proof.Proof.Gen.KernelIdeal
import proofs.«112303_j23192823399233_2_alg».proof.Proof.Gen.KernelIdeal.Frame
import proofs.«112303_j23192823399233_2_alg».proof.Proof.Gen.ReferenceIdeal
import proofs.«112303_j23192823399233_2_alg».proof.Proof.Gen.Pre_finite_inputs
import proofs.«112303_j23192823399233_2_alg».proof.Proof.Spec
import proofs.«112303_j23192823399233_2_alg».proof.Proof.SpecBridge
import proofs.«112303_j23192823399233_2_alg».proof.Proof.RegionLin
import proofs.«112303_j23192823399233_2_alg».proof.Proof.RegionMul
import proofs.«112303_j23192823399233_2_alg».proof.Proof.RegionNorm
import proofs.«112303_j23192823399233_2_alg».proof.Proof.KWalk
import proofs.«112303_j23192823399233_2_alg».proof.Proof.RefRun

noncomputable section

namespace Cert.Proof

open Idealize.ShloMosaic Idealize.ShloMosaic.TcCoe Idealize.SL.Sem

/-- The kernel as printed runs and leaves its arguments as launched (the generated frame). -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.RefRun.run m ρ)

/-- Both programs end at the network `Cert.Spec.result` of the (equal) arguments: the kernel at its arrangement over
    reshaped operands, which is the network; the reference at its own operations composed. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Spec.resultK_eq _ _ _ _ _ _ _ _ _ _ _), (h c).2⟩)
      (Cert.KernelIdeal.KWalk.run_result Cert.KernelIdeal.RegionLin.arr0 Cert.KernelIdeal.RegionMul.arr1 Cert.KernelIdeal.RegionNorm.arr2
        Cert.KernelIdeal.RegionLin.arr3 Cert.KernelIdeal.RegionMul.arr4 Cert.KernelIdeal.RegionNorm.arr5 m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
